-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S10000x256 : Shape := ⟨2, ![10000, 256]⟩
abbrev S10000x128 : Shape := ⟨2, ![10000, 128]⟩
abbrev S1700000x128 : Shape := ⟨2, ![1700000, 128]⟩
abbrev S1x128 : Shape := ⟨2, ![1, 128]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 108
  | .vmem => 30
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x1, .f32⟩
  | .hbm, ⟨81, _⟩ => ⟨S1700000x128, .f32⟩
  | .hbm, ⟨82, _⟩ => ⟨S1700000x128, .f32⟩
  | .hbm, ⟨83, _⟩ => ⟨S_, .f32⟩
  | .hbm, ⟨84, _⟩ => ⟨S100000x128, .f32⟩
  | .hbm, ⟨85, _⟩ => ⟨S1700000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x40, .f32⟩
  | .hbm, ⟨90, _⟩ => ⟨S_, .i32⟩
  | .hbm, ⟨91, _⟩ => ⟨S1700000, .i32⟩
  | .hbm, ⟨92, _⟩ => ⟨S1700000, .i1⟩
  | .hbm, ⟨93, _⟩ => ⟨S_, .i32⟩
  | .hbm, ⟨94, _⟩ => ⟨S1700000, .i32⟩
  | .hbm, ⟨95, _⟩ => ⟨S1700000, .i32⟩
  | .hbm, ⟨96, _⟩ => ⟨S1700000, .i32⟩
  | .hbm, ⟨97, _⟩ => ⟨S1700000x1, .i32⟩
  | .hbm, ⟨98, _⟩ => ⟨S1700000x40, .f32⟩
  | .hbm, ⟨99, _⟩ => ⟨S1700000x1, .f32⟩
  | .hbm, ⟨100, _⟩ => ⟨S1700000x40, .f32⟩
  | .hbm, ⟨101, _⟩ => ⟨S1700000x40, .f32⟩
  | .hbm, ⟨102, _⟩ => ⟨S_, .f32⟩
  | .hbm, ⟨103, _⟩ => ⟨S100000x40, .f32⟩
  | .hbm, ⟨104, _⟩ => ⟨S1700000x1, .i32⟩
  | .hbm, ⟨105, _⟩ => ⟨S100000x40, .f32⟩
  | .hbm, ⟨106, _⟩ => ⟨S1x40, .f32⟩
  | .hbm, ⟨107, _⟩ => ⟨S100000x40, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x40, .f32⟩
  | .local _ .vmem, ⟨23, _⟩ => ⟨S10000x40, .f32⟩
  | .local _ .vmem, ⟨24, _⟩ => ⟨S10000x40, .f32⟩
  | .local _ .vmem, ⟨25, _⟩ => ⟨S10000x40, .f32⟩
  | .local _ .vmem, ⟨26, _⟩ => ⟨S10000x40, .f32⟩
  | .local _ .vmem, ⟨27, _⟩ => ⟨S1x40, .f32⟩
  | .local _ .vmem, ⟨28, _⟩ => ⟨S10000x40, .f32⟩
  | .local _ .vmem, ⟨29, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_c_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x256_S10000x256_0_0 : ∀ a, (![0, 0] : Fin 2 → Nat) a + S10000x256.size a ≤ S10000x256.size a
  h_S10000x256 : 0 < S10000x256.numel
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x256_S256x128_S10000x128_1_0_0_1_n_n_wf : DotDims.WF S10000x256 S256x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x128_S10000x128_1_0_0_1_n_n_wf : DotDims.WF S10000x128 S128x128 S10000x128 [1] [0] [0] [1] [] []
  dot_S10000x128_S128x40_S10000x40_1_0_0_1_n_n_wf : DotDims.WF S10000x128 S128x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x40.size a ≤ S100000x40.size a
  hwx4_2 : ∀ i : grid4.Coords, EltTy.bits .f32 = 32 ∨ (Rect.block (s := S100000x40) S10000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x40.size a ≤ S100000x40.size a
  hwx5_0 : ∀ i : grid5.Coords, EltTy.bits .f32 = 32 ∨ (Rect.block (s := S100000x40) S10000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x40.size a ≤ S100000x40.size a
  hwx5_2 : ∀ i : grid5.Coords, EltTy.bits .f32 = 32 ∨ (Rect.block (s := S100000x40) S10000x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x40_S10000x40_1_0_0_1_n_n : DotDims S10000x128 S128x40 S10000x40 where
  lhsContracting := [1]
  rhsContracting := [0]
  lhsNonContracting := [0]
  rhsNonContracting := [1]
  lhsBatch := []
  rhsBatch := []
  wf := dot_S10000x128_S128x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 189
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S100000x128, .f32⟩
  | 16 => ⟨S_, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S_, .f32⟩
  | 26 => ⟨S100000, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S_, .f32⟩
  | 85 => ⟨S100000, .f32⟩
  | 86 => ⟨S100000, .f32⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x128, .f32⟩
  | 120 => ⟨S1700000x1, .f32⟩
  | 121 => ⟨S1700000x128, .f32⟩
  | 122 => ⟨S1700000x128, .f32⟩
  | 123 => ⟨S_, .f32⟩
  | 124 => ⟨S100000x128, .f32⟩
  | 125 => ⟨S1700000x1, .i32⟩
  | 126 => ⟨S100000x128, .f32⟩
  | 127 => ⟨S1x128, .f32⟩
  | _ => ⟨S100000x256, .f32⟩

abbrev hbmTy0_1 (i : Nat) : BufTy := match i % 128 with
  | 0 => ⟨S100000x128, .f32⟩
  | 1 => ⟨S100000x128, .f32⟩
  | 2 => ⟨S_, .f32⟩
  | 3 => ⟨S100000x128, .f32⟩
  | 4 => ⟨S100000x128, .f32⟩
  | 5 => ⟨S100000x40, .f32⟩
  | 6 => ⟨S_, .f32⟩
  | 7 => ⟨S1700000, .f32⟩
  | 8 => ⟨S_, .f32⟩
  | 9 => ⟨S100000, .f32⟩
  | 10 => ⟨S1700000x1, .i32⟩
  | 11 => ⟨S100000, .f32⟩
  | 12 => ⟨S_, .f32⟩
  | 13 => ⟨S100000, .f32⟩
  | 14 => ⟨S100000, .i1⟩
  | 15 => ⟨S_, .f32⟩
  | 16 => ⟨S100000, .f32⟩
  | 17 => ⟨S100000, .f32⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x40, .f32⟩
  | 51 => ⟨S1700000x1, .f32⟩
  | 52 => ⟨S1700000x40, .f32⟩
  | 53 => ⟨S1700000x40, .f32⟩
  | 54 => ⟨S_, .f32⟩
  | 55 => ⟨S100000x40, .f32⟩
  | 56 => ⟨S1700000x1, .i32⟩
  | 57 => ⟨S100000x40, .f32⟩
  | 58 => ⟨S1x40, .f32⟩
  | 59 => ⟨S100000x40, .f32⟩
  | 60 => ⟨S100000x40, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_cst_13 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_14 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_17 : Ref sig .tc := ⟨.hbm, 101, rfl⟩
abbrev main_v68 : Ref sig .tc := ⟨.hbm, 102, rfl⟩
abbrev main_v69 : Ref sig .tc := ⟨.hbm, 103, rfl⟩
abbrev main_c_18 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_19 : Ref sig .tc := ⟨.hbm, 111, rfl⟩
abbrev main_v76 : Ref sig .tc := ⟨.hbm, 112, rfl⟩
abbrev main_v77 : Ref sig .tc := ⟨.hbm, 113, rfl⟩
abbrev main_c_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_cst_22 : Ref sig .tc := ⟨.hbm, 134, rfl⟩
abbrev main_v94 : Ref sig .tc := ⟨.hbm, 135, rfl⟩
abbrev main_cst_23 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_24 : Ref sig .tc := ⟨.hbm, 140, rfl⟩
abbrev main_v98 : Ref sig .tc := ⟨.hbm, 141, rfl⟩
abbrev main_v99 : Ref sig .tc := ⟨.hbm, 142, rfl⟩
abbrev main_cst_25 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_26 : Ref sig .tc := ⟨.hbm, 147, rfl⟩
abbrev main_call4_v0 : Ref sig .tc := ⟨.hbm, 148, rfl⟩
abbrev main_call4_v1 : Ref sig .tc := ⟨.hbm, 149, rfl⟩
abbrev main_v103 : Ref sig .tc := ⟨.hbm, 150, rfl⟩
abbrev main_c_27 : Ref sig .tc := ⟨.hbm, 151, rfl⟩
abbrev main_v104 : Ref sig .tc := ⟨.hbm, 152, rfl⟩
abbrev main_v105 : Ref sig .tc := ⟨.hbm, 153, rfl⟩
abbrev main_c_28 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_c_29 : Ref sig .tc := ⟨.hbm, 160, rfl⟩
abbrev main_v111 : Ref sig .tc := ⟨.hbm, 161, rfl⟩
abbrev main_v112 : Ref sig .tc := ⟨.hbm, 162, rfl⟩
abbrev main_c_30 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_c_31 : Ref sig .tc := ⟨.hbm, 170, rfl⟩
abbrev main_v119 : Ref sig .tc := ⟨.hbm, 171, rfl⟩
abbrev main_v120 : Ref sig .tc := ⟨.hbm, 172, rfl⟩
abbrev main_c_32 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_cst_33 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run with its result named.

  The program is twelve segments in a row: three stretches of host operations, the first launch, a stretch, two
  launches, a stretch, two launches, a stretch, the last launch. The contents of every unscoped buffer of a TensorCore
  are followed through the segments by a fold of valuations: a host stretch rewrites the buffers its operations write,
  a launch rewrites its output array by what its grid points write back and leaves every other buffer alone. After the
  last segment each buffer holds the last valuation of that fold. Read at the result buffer this names the result of
  the run (the last launch's output array); read at the eight argument buffers it gives the arguments unchanged, since
  no segment writes an argument.
-/
import proofs.«102305_j94489281062_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a core holds before the first segment: its unscoped buffers at the launch memory, its generator register, and
    nothing owed. -/
abbrev firstState (c : Dev nD) : sProp 𝕄 :=
  iprop(StableHlo.held (c : Thread nD τ) (Pipeline.ucRefs τ sig) (W0 m ρ c) ∗ R c)

/-- What is read off a final memory: every unscoped buffer of the core at the last valuation of the fold. -/
abbrev lastReading (c : Dev nD) (s : MemSt nD τ sig (Elt F)) : Prop :=
  ∀ b ∈ Pipeline.ucRefs τ sig, s.mem (((c : Thread nD τ)).1, b) = W12 m ρ c b

set_option backward.isDefEq.respectTransparency.types false in
/-- Every weakly fair execution of the kernel program terminates without a fault; the result buffer ends at the last
    valuation of the fold read at it, and the eight argument arrays end as launched. The segments, their chaining and
    each launch's obligations are the generated ones; here the final memory is read at the result buffer as well. -/
theorem run_main : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := ?launch) (T₀ := firstState m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := ?first) (QY := lastReading m ρ) (hfin := ?last) (hQ := ?read)
  case launch =>
    -- the launch element is the staging cells' initial tokens; no core takes a ghost resource of its own
    iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  case first =>
    -- each core's unscoped buffers at the launch memory ARE the first valuation's; the register and the empty debt ride along
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hh, -, HO, -, Hp, -⟩, -⟩
    imodintro
    isplitl [Hh]; · iexact Hh
    isplitl [Hp]; · iexists _; iexact Hp
    iexists ∅; iexact HO
  case last =>
    -- the last thread state holds every unscoped buffer whole, so the final memory agrees with the last valuation there
    intro c s'
    iintro ⟨⟨Hh, -⟩, HSI⟩
    unfold StableHlo.held
    imodintro
    iapply (pointsTo_read_all (Pipeline.ucRefs τ sig) (fun b => (((c : Thread nD τ)).1, b)) (W12 m ρ c) s')
    isplitl [Hh] <;> iassumption
  case read =>
    -- the result buffer and the arguments are unscoped: the result is the fold's last value, an argument's walks back to the launch
    intro s h c
    exact ⟨h c _ (mem_uc main_v79 (by decide)),
      (h c _ (mem_uc main_arg0 (by decide))).trans (W12_main_arg0 m ρ c),
      (h c _ (mem_uc main_arg1 (by decide))).trans (W12_main_arg1 m ρ c),
      (h c _ (mem_uc main_arg2 (by decide))).trans (W12_main_arg2 m ρ c),
      (h c _ (mem_uc main_arg3 (by decide))).trans (W12_main_arg3 m ρ c),
      (h c _ (mem_uc main_arg4 (by decide))).trans (W12_main_arg4 m ρ c),
      (h c _ (mem_uc main_arg5 (by decide))).trans (W12_main_arg5 m ρ c),
      (h c _ (mem_uc main_arg6 (by decide))).trans (W12_main_arg6 m ρ c),
      (h c _ (mem_uc main_arg7 (by decide))).trans (W12_main_arg7 m ρ c)⟩

end Cert.KernelIdeal.RunValue

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibDotNN.lean ====
/-
  A host matrix product read at an index at the exact extended reals: a general lemma.

  With dimension numbers that contract axis 1 of an `[M, K]` left factor with axis 0 of a `[K, N]` right factor (no
  batch axes; the result `[M, N]`), entry `(p, q)` of the host's product is the sum over `e` of
  `lhs (p, e) * rhs (e, q)`, whatever the precision and the schedule key.
-/
import proofs.«102305_j94489281062_1_alg».proof.Proof.LibMatmulNN

noncomputable section

namespace Cert.LibDotNN

open Idealize.ShloMosaic Idealize.ShloMosaic.ValueIdx Cert.LibMatmulNN

variable {M N K : ℕ}
variable (wf : DotDims.WF (⟨2, ![M, K]⟩ : Shape) (⟨2, ![K, N]⟩ : Shape) (⟨2, ![M, N]⟩ : Shape) [1] [0] [0] [1] [] [])

/-- Entry `(p, q)` of the host's product: row `p` of `lhs` against column `q` of `rhs`. -/
theorem dotGeneral_apply {φ₁ φ₂ : FTy} (prec : Option ContractPrecision) (sched : HostSchedule)
    (lhs : FVec Ideal (⟨2, ![M, K]⟩ : Shape) φ₁) (rhs : FVec Ideal (⟨2, ![K, N]⟩ : Shape) φ₂) (p : Fin M) (q : Fin N) :
    FloatOps.dotGeneral (dims wf) prec sched lhs rhs (ix2 p q) = ∑ e : Fin K, lhs (ix2 p e) * rhs (ix2 e q) := by
  rw [Ideal.dotGeneral_apply, ← Equiv.sum_comp (contrEquiv1 (dims wf) K rfl rfl).symm]
  refine Finset.sum_congr rfl fun e _ => ?_
  rw [lhsIdx_eq wf p q e, rhsIdx_eq wf p q e]

end Cert.LibDotNN

end
-- ==== Proof.MatmulRegions.lean ====
/-
  The three matrix-product launches of the 3-layer graph convolution, each read as ONE product of whole arrays.

  Each launch tiles the 100000 rows of its left factor into 10 blocks of 10000 rows. At grid point t the body takes rows
  [10000 t, 10000 t + 10000) of the left factor and the WHOLE right factor, multiplies them into a zero accumulator, and
  stores the [10000, N] block as rows [10000 t, 10000 t + 10000) of the result. Entry (p, q) of a block's product is the
  sum over e of (row p of the block)(e) * (right factor)(e, q); row p of block t is row 10000 t + p of the left factor, so
  that entry is entry (10000 t + p, q) of the whole product X · W. The 10 row blocks tile the result (row r lies in block
  r / 10000), hence the result array after the launch is X · W, entry (r, q) = sum over e of X(r, e) * W(e, q). At the exact
  extended reals the host's single contraction of the whole arrays is that same sum entry by entry, which gives the three
  closing equations: the first layer [100000, 256] · [256, 128], the second [100000, 128] · [128, 128], and the third
  [100000, 128] · [128, 40].
-/
import proofs.«102305_j94489281062_1_alg».proof.Proof.Gen.KernelIdeal.Frame
import proofs.«102305_j94489281062_1_alg».proof.Proof.Gen.ReferenceIdeal
import proofs.«102305_j94489281062_1_alg».proof.Proof.LibMatmulNN
import proofs.«102305_j94489281062_1_alg».proof.Proof.LibDotNN
import Idealize.ShloMosaic.Lib.Pipeline.Value
import Idealize.ShloMosaic.Lib.ValueIdx
import Idealize.ShloMosaic.PureOps.Ideal.Laws

set_option maxRecDepth 16384

noncomputable section

namespace Cert.KernelIdeal.MatmulRegions

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- A whole-buffer access starts at zero on both axes. -/
theorem zero_offsets : (![0, 0] : Fin 2 → Nat) = fun _ => 0 := funext fun a => by fin_cases a <;> rfl

/-! ## Region 0: the first layer's product, [100000, 256] · [256, 128]

The launch tiles the 100000 rows into 10 blocks of 10000 rows; point t multiplies rows [10000 t, 10000 t + 10000) of the
left factor by the whole right factor into a zero accumulator and stores that row block of the result. -/

/-- The whole product: entry (r, q) is row r of the left factor against column q of the right one. -/
abbrev product0 (X : FVec Ideal S100000x256 .f32) (W : FVec Ideal S256x128 .f32) : FVec Ideal S100000x128 .f32 :=
  fun i => ∑ e : Fin 256, X (ix2 (i 0) e) * W (ix2 e (i 1))

/-- Entry (p, q) of a block's product into a zero accumulator: row p of the block against column q of the weight. -/
theorem blockProduct0_apply (x0 : Vec Ideal S10000x256 .f32) (x1 : Vec Ideal S256x128 .f32) (p : Fin 10000) (q : Fin 128) :
    k0_pay1 x0 x1 (ix2 p q) = ∑ e : Fin 256, x0 (ix2 p e) * x1 (ix2 e q) := by
  unfold k0_pay1
  exact Cert.LibMatmulNN.matmul_zero_apply Facts₀.dot_S10000x256_S256x128_S10000x128_1_0_0_1_n_n_wf none x0 x1 p q

/-- A block's product at (p, q) is the whole product at index i as soon as row p of the block is row (i 0) of the left
    factor and column q of the block's weight is column (i 1) of the right factor. -/
theorem blockProduct0_eq (X : FVec Ideal S100000x256 .f32) (W : FVec Ideal S256x128 .f32)
    (x0 : Vec Ideal S10000x256 .f32) (x1 : Vec Ideal S256x128 .f32) (i : S100000x128.Idx) (p : Fin 10000) (q : Fin 128)
    (hx : ∀ e : Fin 256, x0 (ix2 p e) = X (ix2 (i 0) e)) (hw : ∀ e : Fin 256, x1 (ix2 e q) = W (ix2 e (i 1))) :
    k0_pay1 x0 x1 (ix2 p q) = product0 X W i := by
  rw [blockProduct0_apply]
  exact Finset.sum_congr rfl fun e _ => by rw [hx e, hw e]

/-- The printed index maps over the grid: the left factor's and the result's row block have the same number, and every
    other block index is zero (the left factor's and the result's column block, both of the weight's). -/
theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 10 row blocks of the result is some point's. -/
theorem row_block_onto0 : ∀ b : Fin 10, ∃ t : Fin cfg0.N, win0_2.index t = ![b.val, 0] :=
  (by decide +kernel : ∀ b : Fin 10, ∃ t : Fin grid0.N, win0_2.index t = ![b.val, 0])

/-- What point t writes back is block t of the whole product of the arrays as the region finds them. -/
theorem flushed0_eq (c : Dev nD) (t : Fin cfg0.N) :
    (dat0 (F := Ideal) V c).flushed 2 t
      = ((cfg0.win 2).blk t).view.read (Elt Ideal) (product0 (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S10000x256) zero_offsets, View.ld_unit_zero (S := S256x128) zero_offsets]
  obtain ⟨e0, e1, e2, e3, e4⟩ := index_facts0 t
  funext j
  obtain ⟨p, q, rfl⟩ : ∃ (p : Fin 10000) (q : Fin 128), j = ix2 p q := ⟨j 0, j 1, eq_ix2 j⟩
  refine blockProduct0_eq (V c main_arg0) (V c main_arg2) (iblk0 V c 0 t) (iblk0 V c 1 t)
    (((cfg0.win 2).blk t).view.emb (ix2 p q)) p q (fun e => ?_) (fun e => ?_)
  · -- row p of the left factor's block is row 10000 t + p of the left factor
    show V c main_arg0 (((cfg0.win 0).blk t).view.emb (ix2 p e)) = V c main_arg0 _
    refine congrArg (V c main_arg0) ?_
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 256 + 1 * e.val = e.val; omega
  · -- the weight's block is the whole weight
    show V c main_arg2 (((cfg0.win 1).blk t).view.emb (ix2 e q)) = V c main_arg2 _
    refine congrArg (V c main_arg2) ?_
    funext a; apply Fin.ext
    match a with
    | ⟨0, _⟩ => show win0_1.index t (0 : Fin 2) * 256 + 1 * e.val = e.val; omega
    | ⟨1, _⟩ => show win0_1.index t (1 : Fin 2) * 128 + 1 * q.val = win0_2.index t (1 : Fin 2) * 128 + 1 * q.val; omega

/-- An index of the result is in point t's block iff each coordinate is in the block's range on its axis. -/
theorem mem_block0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- The row blocks tile the result: row r is in the block of point r / 10000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := row_block_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The whole product is the host's one contraction of the whole arrays: the same sum, entry by entry. -/
theorem product0_eq_dot (X : FVec Ideal S100000x256 .f32) (W : FVec Ideal S256x128 .f32) :
    product0 X W = Host.dotGeneral (F := Ideal) Cert.ReferenceIdeal.dot_S100000x256_S256x128_S100000x128_1_0_0_1_n_n none X W := by
  funext i
  obtain ⟨r, q, rfl⟩ : ∃ (r : Fin 100000) (q : Fin 128), i = ix2 r q := ⟨i 0, i 1, eq_ix2 i⟩
  exact (Cert.LibDotNN.dotGeneral_apply Cert.ReferenceIdeal.Facts₀.dot_S100000x256_S256x128_S100000x128_1_0_0_1_n_n_wf none .single X W r q).symm

/-- The result array after the launch is the host's contraction of the two arrays as the region finds them. -/
theorem final0 (c : Dev nD) :
    (dat0 (F := Ideal) V c).arrAt 2 cfg0.N
      = Host.dotGeneral (F := Ideal) (φ₁ := .f32) (φ₂ := .f32) Cert.ReferenceIdeal.dot_S100000x256_S256x128_S100000x128_1_0_0_1_n_n none
          (V c main_arg0) (V c main_arg2) :=
  ((dat0 (F := Ideal) V c).arrAt_eq_of_cover 2 (product0 (V c main_arg0) (V c main_arg2)) (fun t _ => flushed0_eq V c t) cover0).trans
    (product0_eq_dot (V c main_arg0) (V c main_arg2))

/-! ## Region 2: the second layer's product, [100000, 128] · [128, 128]

The launch tiles the 100000 rows into 10 blocks of 10000 rows; point t multiplies rows [10000 t, 10000 t + 10000) of the
left factor by the whole right factor into a zero accumulator and stores that row block of the result. -/

/-- The whole product: entry (r, q) is row r of the left factor against column q of the right one. -/
abbrev product2 (X : FVec Ideal S100000x128 .f32) (W : FVec Ideal S128x128 .f32) : FVec Ideal S100000x128 .f32 :=
  fun i => ∑ e : Fin 128, X (ix2 (i 0) e) * W (ix2 e (i 1))

/-- Entry (p, q) of a block's product into a zero accumulator: row p of the block against column q of the weight (the block first passes through a cast to its own shape, which is the identity). -/
theorem blockProduct2_apply (x0 : Vec Ideal S10000x128 .f32) (x1 : Vec Ideal S128x128 .f32) (p : Fin 10000) (q : Fin 128) :
    k2_pay1 x0 x1 (ix2 p q) = ∑ e : Fin 128, x0 (ix2 p e) * x1 (ix2 e q) := by
  unfold k2_pay1
  rw [shapeCast_self]
  exact Cert.LibMatmulNN.matmul_zero_apply Facts₀.dot_S10000x128_S128x128_S10000x128_1_0_0_1_n_n_wf none x0 x1 p q

/-- A block's product at (p, q) is the whole product at index i as soon as row p of the block is row (i 0) of the left
    factor and column q of the block's weight is column (i 1) of the right factor. -/
theorem blockProduct2_eq (X : FVec Ideal S100000x128 .f32) (W : FVec Ideal S128x128 .f32)
    (x0 : Vec Ideal S10000x128 .f32) (x1 : Vec Ideal S128x128 .f32) (i : S100000x128.Idx) (p : Fin 10000) (q : Fin 128)
    (hx : ∀ e : Fin 128, x0 (ix2 p e) = X (ix2 (i 0) e)) (hw : ∀ e : Fin 128, x1 (ix2 e q) = W (ix2 e (i 1))) :
    k2_pay1 x0 x1 (ix2 p q) = product2 X W i := by
  rw [blockProduct2_apply]
  exact Finset.sum_congr rfl fun e _ => by rw [hx e, hw e]

/-- The printed index maps over the grid: the left factor's and the result's row block have the same number, and every
    other block index is zero (the left factor's and the result's column block, both of the weight's). -/
theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 10 row blocks of the result is some point's. -/
theorem row_block_onto2 : ∀ b : Fin 10, ∃ t : Fin cfg2.N, win2_2.index t = ![b.val, 0] :=
  (by decide +kernel : ∀ b : Fin 10, ∃ t : Fin grid2.N, win2_2.index t = ![b.val, 0])

/-- What point t writes back is block t of the whole product of the arrays as the region finds them. -/
theorem flushed2_eq (c : Dev nD) (t : Fin cfg2.N) :
    (dat2 (F := Ideal) V c).flushed 2 t
      = ((cfg2.win 2).blk t).view.read (Elt Ideal) (product2 (V c main_v47) (V c main_arg4)) := by
  show (cfg2.win 2).cut (grid2.coords t) ((dat2 (F := Ideal) V c).after 2 t) = _
  rw [after2_2]
  unfold out2_2
  rw [View.canon_unit_zero zero_offsets]
  simp only [View.ld_unit_zero (S := S10000x128) zero_offsets, View.ld_unit_zero (S := S128x128) zero_offsets]
  obtain ⟨e0, e1, e2, e3, e4⟩ := index_facts2 t
  funext j
  obtain ⟨p, q, rfl⟩ : ∃ (p : Fin 10000) (q : Fin 128), j = ix2 p q := ⟨j 0, j 1, eq_ix2 j⟩
  refine blockProduct2_eq (V c main_v47) (V c main_arg4) (iblk2 V c 0 t) (iblk2 V c 1 t)
    (((cfg2.win 2).blk t).view.emb (ix2 p q)) p q (fun e => ?_) (fun e => ?_)
  · -- row p of the left factor's block is row 10000 t + p of the left factor
    show V c main_v47 (((cfg2.win 0).blk t).view.emb (ix2 p e)) = V c main_v47 _
    refine congrArg (V c main_v47) ?_
    funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * e.val = e.val; omega
  · -- the weight's block is the whole weight
    show V c main_arg4 (((cfg2.win 1).blk t).view.emb (ix2 e q)) = V c main_arg4 _
    refine congrArg (V c main_arg4) ?_
    funext a; apply Fin.ext
    match a with
    | ⟨0, _⟩ => show win2_1.index t (0 : Fin 2) * 128 + 1 * e.val = e.val; omega
    | ⟨1, _⟩ => show win2_1.index t (1 : Fin 2) * 128 + 1 * q.val = win2_2.index t (1 : Fin 2) * 128 + 1 * q.val; omega

/-- An index of the result is in point t's block iff each coordinate is in the block's range on its axis. -/
theorem mem_block2 (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v48).slice (win2_2.rect t)).set ↔ _
  rw [View.set_slice_whole, Rect.mem_set_unit]
  exact Iff.rfl

/-- The row blocks tile the result: row r is in the block of point r / 10000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := row_block_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The whole product is the host's one contraction of the whole arrays: the same sum, entry by entry. -/
theorem product2_eq_dot (X : FVec Ideal S100000x128 .f32) (W : FVec Ideal S128x128 .f32) :
    product2 X W = Host.dotGeneral (F := Ideal) Cert.ReferenceIdeal.dot_S100000x128_S128x128_S100000x128_1_0_0_1_n_n none X W := by
  funext i
  obtain ⟨r, q, rfl⟩ : ∃ (r : Fin 100000) (q : Fin 128), i = ix2 r q := ⟨i 0, i 1, eq_ix2 i⟩
  exact (Cert.LibDotNN.dotGeneral_apply Cert.ReferenceIdeal.Facts₀.dot_S100000x128_S128x128_S100000x128_1_0_0_1_n_n_wf none .single X W r q).symm

/-- The result array after the launch is the host's contraction of the two arrays as the region finds them. -/
theorem final2 (c : Dev nD) :
    (dat2 (F := Ideal) V c).arrAt 2 cfg2.N
      = Host.dotGeneral (F := Ideal) (φ₁ := .f32) (φ₂ := .f32) Cert.ReferenceIdeal.dot_S100000x128_S128x128_S100000x128_1_0_0_1_n_n none
          (V c main_v47) (V c main_arg4) :=
  ((dat2 (F := Ideal) V c).arrAt_eq_of_cover 2 (product2 (V c main_v47) (V c main_arg4)) (fun t _ => flushed2_eq V c t) cover2).trans
    (product2_eq_dot (V c main_v47) (V c main_arg4))

/-! ## Region 4: the third layer's product, [100000, 128] · [128, 40]

The launch tiles the 100000 rows into 10 blocks of 10000 rows; point t multiplies rows [10000 t, 10000 t + 10000) of the
left factor by the whole right factor into a zero accumulator and stores that row block of the result. -/

/-- The whole product: entry (r, q) is row r of the left factor against column q of the right one. -/
abbrev product4 (X : FVec Ideal S100000x128 .f32) (W : FVec Ideal S128x40 .f32) : FVec Ideal S100000x40 .f32 :=
  fun i => ∑ e : Fin 128, X (ix2 (i 0) e) * W (ix2 e (i 1))

/-- Entry (p, q) of a block's product into a zero accumulator: row p of the block against column q of the weight (the block first passes through a cast to its own shape, which is the identity). -/
theorem blockProduct4_apply (x0 : Vec Ideal S10000x128 .f32) (x1 : Vec Ideal S128x40 .f32) (p : Fin 10000) (q : Fin 40) :
    k4_pay1 x0 x1 (ix2 p q) = ∑ e : Fin 128, x0 (ix2 p e) * x1 (ix2 e q) := by
  unfold k4_pay1
  rw [shapeCast_self]
  exact Cert.LibMatmulNN.matmul_zero_apply Facts₀.dot_S10000x128_S128x40_S10000x40_1_0_0_1_n_n_wf none x0 x1 p q

/-- A block's product at (p, q) is the whole product at index i as soon as row p of the block is row (i 0) of the left
    factor and column q of the block's weight is column (i 1) of the right factor. -/
theorem blockProduct4_eq (X : FVec Ideal S100000x128 .f32) (W : FVec Ideal S128x40 .f32)
    (x0 : Vec Ideal S10000x128 .f32) (x1 : Vec Ideal S128x40 .f32) (i : S100000x40.Idx) (p : Fin 10000) (q : Fin 40)
    (hx : ∀ e : Fin 128, x0 (ix2 p e) = X (ix2 (i 0) e)) (hw : ∀ e : Fin 128, x1 (ix2 e q) = W (ix2 e (i 1))) :
    k4_pay1 x0 x1 (ix2 p q) = product4 X W i := by
  rw [blockProduct4_apply]
  exact Finset.sum_congr rfl fun e _ => by rw [hx e, hw e]

/-- The printed index maps over the grid: the left factor's and the result's row block have the same number, and every
    other block index is zero (the left factor's and the result's column block, both of the weight's). -/
theorem index_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 10 row blocks of the result is some point's. -/
theorem row_block_onto4 : ∀ b : Fin 10, ∃ t : Fin cfg4.N, win4_2.index t = ![b.val, 0] :=
  (by decide +kernel : ∀ b : Fin 10, ∃ t : Fin grid4.N, win4_2.index t = ![b.val, 0])

/-- What point t writes back is block t of the whole product of the arrays as the region finds them. -/
theorem flushed4_eq (c : Dev nD) (t : Fin cfg4.N) :
    (dat4 (F := Ideal) V c).flushed 2 t
      = ((cfg4.win 2).blk t).view.read (Elt Ideal) (product4 (V c main_v63) (V c main_arg6)) := by
  show (cfg4.win 2).cut (grid4.coords t) ((dat4 (F := Ideal) V c).after 2 t) = _
  rw [after4_2]
  unfold out4_2
  rw [View.canon_unit_zero zero_offsets]
  simp only [View.ld_unit_zero (S := S10000x128) zero_offsets, View.ld_unit_zero (S := S128x40) zero_offsets]
  obtain ⟨e0, e1, e2, e3, e4⟩ := index_facts4 t
  funext j
  obtain ⟨p, q, rfl⟩ : ∃ (p : Fin 10000) (q : Fin 40), j = ix2 p q := ⟨j 0, j 1, eq_ix2 j⟩
  refine blockProduct4_eq (V c main_v63) (V c main_arg6) (iblk4 V c 0 t) (iblk4 V c 1 t)
    (((cfg4.win 2).blk t).view.emb (ix2 p q)) p q (fun e => ?_) (fun e => ?_)
  · -- row p of the left factor's block is row 10000 t + p of the left factor
    show V c main_v63 (((cfg4.win 0).blk t).view.emb (ix2 p e)) = V c main_v63 _
    refine congrArg (V c main_v63) ?_
    funext a; apply Fin.ext
    match a with
    | ⟨0, _⟩ => show win4_0.index t (0 : Fin 2) * 10000 + 1 * p.val = win4_2.index t (0 : Fin 2) * 10000 + 1 * p.val; omega
    | ⟨1, _⟩ => show win4_0.index t (1 : Fin 2) * 128 + 1 * e.val = e.val; omega
  · -- the weight's block is the whole weight
    show V c main_arg6 (((cfg4.win 1).blk t).view.emb (ix2 e q)) = V c main_arg6 _
    refine congrArg (V c main_arg6) ?_
    funext a; apply Fin.ext
    match a with
    | ⟨0, _⟩ => show win4_1.index t (0 : Fin 2) * 128 + 1 * e.val = e.val; omega
    | ⟨1, _⟩ => show win4_1.index t (1 : Fin 2) * 40 + 1 * q.val = win4_2.index t (1 : Fin 2) * 40 + 1 * q.val; omega

/-- An index of the result is in point t's block iff each coordinate is in the block's range on its axis. -/
theorem mem_block4 (t : Fin cfg4.N) (i : S100000x40.Idx) :
    i ∈ ((cfg4.win 2).blk t).view.set ↔ ∀ a : Fin 2, win4_2.index t a * S10000x40.size a ≤ (i a).val ∧ (i a).val < win4_2.index t a * S10000x40.size a + S10000x40.size a := by
  show i ∈ ((View.whole main_v64).slice (win4_2.rect t)).set ↔ _
  rw [View.set_slice_whole, Rect.mem_set_unit]
  exact Iff.rfl

/-- The row blocks tile the result: row r is in the block of point r / 10000. -/
theorem cover4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ := row_block_onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_block4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 40 ≤ (i 1).val ∧ (i 1).val < win4_2.index t (1 : Fin 2) * 40 + 40; omega

/-- The whole product is the host's one contraction of the whole arrays: the same sum, entry by entry. -/
theorem product4_eq_dot (X : FVec Ideal S100000x128 .f32) (W : FVec Ideal S128x40 .f32) :
    product4 X W = Host.dotGeneral (F := Ideal) Cert.ReferenceIdeal.dot_S100000x128_S128x40_S100000x40_1_0_0_1_n_n none X W := by
  funext i
  obtain ⟨r, q, rfl⟩ : ∃ (r : Fin 100000) (q : Fin 40), i = ix2 r q := ⟨i 0, i 1, eq_ix2 i⟩
  exact (Cert.LibDotNN.dotGeneral_apply Cert.ReferenceIdeal.Facts₀.dot_S100000x128_S128x40_S100000x40_1_0_0_1_n_n_wf none .single X W r q).symm

/-- The result array after the launch is the host's contraction of the two arrays as the region finds them. -/
theorem final4 (c : Dev nD) :
    (dat4 (F := Ideal) V c).arrAt 2 cfg4.N
      = Host.dotGeneral (F := Ideal) (φ₁ := .f32) (φ₂ := .f32) Cert.ReferenceIdeal.dot_S100000x128_S128x40_S100000x40_1_0_0_1_n_n none
          (V c main_v63) (V c main_arg6) :=
  ((dat4 (F := Ideal) V c).arrAt_eq_of_cover 2 (product4 (V c main_v63) (V c main_arg6)) (fun t _ => flushed4_eq V c t) cover4).trans
    (product4_eq_dot (V c main_v63) (V c main_arg6))

end Cert.KernelIdeal.MatmulRegions

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.LibBroadcastInDim.lean ====
/-
  Three `broadcast_in_dim` layouts read at an index: general lemmas.

  A column `[a, 1]` sent to `[a, b]` along both axes repeats its one column; a row `[1, b]` sent to `[a, b]` along both
  axes repeats its one row; a vector `[b]` sent to `[1, b]` along axis 1 is the row with the vector's entries.
-/
import Idealize.ShloMosaic.Lib.Pipeline.Value
import Idealize.ShloMosaic.Lib.ValueIdx

namespace BroadcastRead

open Idealize.ShloMosaic Idealize.ShloMosaic.ValueIdx

/-- A column `[a, 1]` broadcast to `[a, b]` reads, at `(p, q)`, the column at row `p`. -/
theorem column_apply {α : Type} {a b : ℕ} (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply ![0, 1] h v (ix2 p q) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, q)`, the row at column `q`. -/
theorem row_apply {α : Type} {a b : ℕ} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply ![0, 1] h v (ix2 p q) (ix2 (0 : Fin 1) q) fun ax => ?_
  match ax with
  | ⟨0, _⟩ => rfl
  | ⟨1, _⟩ =>
    show q.val = if b = 1 then 0 else q.val
    split
    · have := q.isLt; omega
    · rfl

/-- A vector `[b]` broadcast to the row `[1, b]` along axis 1 reads, at `(u, q)`, the vector at `q`. -/
theorem vector_row_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end BroadcastRead
-- ==== Proof.BiasRegions.lean ====
/-
  The three bias launches, read as whole arrays.

  Each launch tiles the 100000 rows of its input into 10 blocks of 10000 rows. At every point the body adds the bias
  row [1, D], repeated down the 10000 rows, to its [10000, D] block and (in the first two launches) takes the maximum
  with zero. The blocks tile the output, so the output array is, entry by entry,
  max (H (r, q) + b (0, q), 0) (last launch: H (r, q) + b (0, q)): what the whole-array addition of the row broadcast
  to [100000, D], followed by the maximum with the zero array, computes entry by entry.
-/
import proofs.«102305_j94489281062_1_alg».proof.Proof.Gen.KernelIdeal.Frame
import proofs.«102305_j94489281062_1_alg».proof.Proof.Gen.ReferenceIdeal
import proofs.«102305_j94489281062_1_alg».proof.Proof.LibBiasRow
import proofs.«102305_j94489281062_1_alg».proof.Proof.LibBroadcastInDim
import Idealize.ShloMosaic.Lib.Pipeline.Value
import Idealize.ShloMosaic.Lib.ValueIdx
import Idealize.ShloMosaic.Lib.ValueLayout

set_option maxRecDepth 16384

noncomputable section

namespace Cert.KernelIdeal.BiasRegions

open Cert.KernelIdeal Cert.KernelIdeal.Gen Idealize.ShloMosaic Idealize.ShloMosaic.TcCoe Idealize.ShloMosaic.ValueIdx Idealize.SL.Sem
open Idealize.ShloMosaic.Pipeline (Dat)

/-- The zero offsets of a whole-block access, as a constant function. -/
theorem zero_offsets : (![0, 0] : Fin 2 → Nat) = fun _ => 0 := funext fun a => by fin_cases a <;> rfl

/-! ## The bias-and-maximum array, D = 128 -/

/-- The output array of a bias-and-maximum launch as one function of the input array `H` and the bias row `b`:
    entry `(r, q)` is `max (H (r, q) + b (0, q), 0)`. -/
abbrev biasMaxArr (H : S100000x128.Idx → Elt Ideal .f32) (b : S1x128.Idx → Elt Ideal .f32) :
    S100000x128.Idx → Elt Ideal .f32 :=
  fun i => max (H i + b (ix2 (0 : Fin 1) (i 1))) (FloatOps.ofBits (F := Ideal) .f32 0x00000000#32)

/-- `biasMaxArr` at an index `i`, from the input read at an equal index and the bias row read at `(0, i 1)`. -/
theorem biasMaxArr_at (H : S100000x128.Idx → Elt Ideal .f32) (b : S1x128.Idx → Elt Ideal .f32)
    (i0 i : S100000x128.Idx) (k : S1x128.Idx) (h0 : i0 = i) (h1 : k = ix2 (0 : Fin 1) (i 1)) :
    max (H i0 + b k) (FloatOps.ofBits (F := Ideal) .f32 0x00000000#32) = biasMaxArr H b i := by
  subst h0 h1; rfl

/-- `biasMaxArr` is the whole-array form: the row broadcast to all rows and added, then the maximum with the zero
    array, entry by entry. -/
theorem biasMaxArr_eq (H : S100000x128.Idx → Elt Ideal .f32) (b : S1x128.Idx → Elt Ideal .f32) :
    biasMaxArr H b
      = maximumf (addf H (broadcastInDim Cert.ReferenceIdeal.S100000x128 ![0, 1] Cert.ReferenceIdeal.Facts₀.bcast_S1x128_S100000x128_0_1 b))
          (broadcastInDim Cert.ReferenceIdeal.S100000x128 ![] Cert.ReferenceIdeal.Facts₀.bcast_S_S100000x128 (constant (F := Ideal) Cert.ReferenceIdeal.S_ .f32 0x00000000#32)) := by
  funext i
  obtain ⟨r, q, rfl⟩ : ∃ (r : Fin 100000) (q : Fin 128), i = ix2 r q := ⟨i 0, i 1, eq_ix2 i⟩
  rw [maximumf_apply, addf_apply, BroadcastRead.row_apply, BiasRead.scalar_apply _ _ _ ix0]
  rfl

/-! ## First launch: bias row added, maximum with zero, D = 128 -/

/-- The body's payload at `(p, q)`: the block's entry plus the bias row's entry in column `q`, then the maximum
    with zero. -/
theorem pay1_apply (x0 : Vec Ideal S10000x128 .f32) (x1 : Vec Ideal S1x128 .f32) (p : Fin 10000) (q : Fin 128) :
    k1_pay1 x0 x1 (ix2 p q)
      = max (x0 (ix2 p q) + x1 (ix2 (0 : Fin 1) q)) (FloatOps.ofBits (F := Ideal) .f32 0x00000000#32) := by
  unfold k1_pay1
  show max ((shapeCast S10000x128 x0 shapeCasts_S10000x128_S10000x128) (ix2 p q)
      + broadcastTo S10000x128 (shapeCast S1x128 x1 shapeCasts_S1x128_S1x128) broadcasts_S1x128_S10000x128 (ix2 p q)) _ = _
  rw [shapeCast_self, shapeCast_self, BiasRead.row_down_apply]
  rfl

/-- The index maps over the 10 points: the input and output blocks sit at block row `t`, block column 0;
    the bias row's block is the whole row at every point. -/
theorem idx_facts1 : ∀ t : Fin cfg1.N, win1_0.index t (0 : Fin 2) = win1_2.index t (0 : Fin 2)
    ∧ win1_0.index t (1 : Fin 2) = 0 ∧ win1_2.index t (1 : Fin 2) = 0
    ∧ win1_1.index t (0 : Fin 2) = 0 ∧ win1_1.index t (1 : Fin 2) = 0
    ∧ win1_2.index t (0 : Fin 2) ≤ 9 :=
  (by decide +kernel : ∀ t : Fin grid1.N, _)

/-- Every block row of the output is some point's. -/
theorem idx_onto1 : ∀ (q0 : Fin 10), ∃ t : Fin cfg1.N, win1_2.index t = ![q0.val, 0] :=
  (by decide +kernel : ∀ (q0 : Fin 10), ∃ t : Fin grid1.N, win1_2.index t = ![q0.val, 0])

/-- What point `t` writes back is block `t` of `biasMaxArr` of the arrays as the launch finds them. -/
theorem flushed1_eq (V : (c : Dev nD) → (b : Ref sig .tc) → Buf (Elt Ideal) ((c : Thread nD τ).loc b)) (c : Dev nD)
    (t : Fin cfg1.N) :
    (dat1 (F := Ideal) V c).flushed 2 t
      = ((cfg1.win 2).blk t).view.read (Elt Ideal) (biasMaxArr (V c main_v45) (V c main_v46)) := by
  show (cfg1.win 2).cut (grid1.coords t) ((dat1 V c).after 2 t) = _
  rw [after1_2]
  unfold out1_2
  rw [View.canon_unit_zero zero_offsets]
  simp only [View.ld_unit_zero (S := S10000x128) zero_offsets, View.ld_unit_zero (S := S1x128) zero_offsets]
  obtain ⟨e0, e1, e2, e3, e4, e5⟩ := idx_facts1 t
  funext j
  obtain ⟨p, q, rfl⟩ : ∃ (p : Fin 10000) (q : Fin 128), j = ix2 p q := ⟨j 0, j 1, eq_ix2 j⟩
  refine (pay1_apply (iblk1 V c 0 t) (iblk1 V c 1 t) p q).trans ?_
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  show _ = biasMaxArr (V c main_v45) (V c main_v46) (((cfg1.win 2).blk t).view.emb (ix2 p q))
  exact biasMaxArr_at (V c main_v45) (V c main_v46) (((cfg1.win 0).blk t).view.emb (ix2 p q))
    (((cfg1.win 2).blk t).view.emb (ix2 p q)) (((cfg1.win 1).blk t).view.emb (ix2 (0 : Fin 1) q)) h0 h1

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- The blocks tile the output: row `r` is in the block of the point at block row `r / 10000`. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 128 ≤ (i 1).val ∧ (i 1).val < win1_2.index t (1 : Fin 2) * 128 + 128; omega

/-- The first launch's output array after the run. -/
theorem final1 (V : (c : Dev nD) → (b : Ref sig .tc) → Buf (Elt Ideal) ((c : Thread nD τ).loc b)) (c : Dev nD) :
    (dat1 (F := Ideal) V c).arrAt 2 cfg1.N
      = maximumf (addf (V c main_v45) (broadcastInDim Cert.ReferenceIdeal.S100000x128 ![0, 1] Cert.ReferenceIdeal.Facts₀.bcast_S1x128_S100000x128_0_1 (V c main_v46)))
          (broadcastInDim Cert.ReferenceIdeal.S100000x128 ![] Cert.ReferenceIdeal.Facts₀.bcast_S_S100000x128 (constant (F := Ideal) Cert.ReferenceIdeal.S_ .f32 0x00000000#32)) :=
  ((dat1 (F := Ideal) V c).arrAt_eq_of_cover 2 (biasMaxArr (V c main_v45) (V c main_v46)) (fun t _ => flushed1_eq V c t) cover1).trans
    (biasMaxArr_eq (V c main_v45) (V c main_v46))

/-! ## Second launch: bias row added, maximum with zero, D = 128 -/

/-- The body's payload at `(p, q)`: the block's entry plus the bias row's entry in column `q`, then the maximum
    with zero. -/
theorem pay3_apply (x0 : Vec Ideal S10000x128 .f32) (x1 : Vec Ideal S1x128 .f32) (p : Fin 10000) (q : Fin 128) :
    k3_pay1 x0 x1 (ix2 p q)
      = max (x0 (ix2 p q) + x1 (ix2 (0 : Fin 1) q)) (FloatOps.ofBits (F := Ideal) .f32 0x00000000#32) := by
  unfold k3_pay1
  show max ((shapeCast S10000x128 x0 shapeCasts_S10000x128_S10000x128) (ix2 p q)
      + broadcastTo S10000x128 (shapeCast S1x128 x1 shapeCasts_S1x128_S1x128) broadcasts_S1x128_S10000x128 (ix2 p q)) _ = _
  rw [shapeCast_self, shapeCast_self, BiasRead.row_down_apply]
  rfl

/-- The index maps over the 10 points: the input and output blocks sit at block row `t`, block column 0;
    the bias row's block is the whole row at every point. -/
theorem idx_facts3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 9 :=
  (by decide +kernel : ∀ t : Fin grid3.N, _)

/-- Every block row of the output is some point's. -/
theorem idx_onto3 : ∀ (q0 : Fin 10), ∃ t : Fin cfg3.N, win3_2.index t = ![q0.val, 0] :=
  (by decide +kernel : ∀ (q0 : Fin 10), ∃ t : Fin grid3.N, win3_2.index t = ![q0.val, 0])

/-- What point `t` writes back is block `t` of `biasMaxArr` of the arrays as the launch finds them. -/
theorem flushed3_eq (V : (c : Dev nD) → (b : Ref sig .tc) → Buf (Elt Ideal) ((c : Thread nD τ).loc b)) (c : Dev nD)
    (t : Fin cfg3.N) :
    (dat3 (F := Ideal) V c).flushed 2 t
      = ((cfg3.win 2).blk t).view.read (Elt Ideal) (biasMaxArr (V c main_v61) (V c main_v62)) := by
  show (cfg3.win 2).cut (grid3.coords t) ((dat3 V c).after 2 t) = _
  rw [after3_2]
  unfold out3_2
  rw [View.canon_unit_zero zero_offsets]
  simp only [View.ld_unit_zero (S := S10000x128) zero_offsets, View.ld_unit_zero (S := S1x128) zero_offsets]
  obtain ⟨e0, e1, e2, e3, e4, e5⟩ := idx_facts3 t
  funext j
  obtain ⟨p, q, rfl⟩ : ∃ (p : Fin 10000) (q : Fin 128), j = ix2 p q := ⟨j 0, j 1, eq_ix2 j⟩
  refine (pay3_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 128 + 1 * q.val = win3_2.index t (1 : Fin 2) * 128 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  show _ = biasMaxArr (V c main_v61) (V c main_v62) (((cfg3.win 2).blk t).view.emb (ix2 p q))
  exact biasMaxArr_at (V c main_v61) (V c main_v62) (((cfg3.win 0).blk t).view.emb (ix2 p q))
    (((cfg3.win 2).blk t).view.emb (ix2 p q)) (((cfg3.win 1).blk t).view.emb (ix2 (0 : Fin 1) q)) h0 h1

/-- An index of the output array is in point `t`'s block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v63).slice (win3_2.rect t)).set ↔ _
  rw [View.set_slice_whole, Rect.mem_set_unit]
  exact Iff.rfl

/-- The blocks tile the output: row `r` is in the block of the point at block row `r / 10000`. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The second launch's output array after the run. -/
theorem final3 (V : (c : Dev nD) → (b : Ref sig .tc) → Buf (Elt Ideal) ((c : Thread nD τ).loc b)) (c : Dev nD) :
    (dat3 (F := Ideal) V c).arrAt 2 cfg3.N
      = maximumf (addf (V c main_v61) (broadcastInDim Cert.ReferenceIdeal.S100000x128 ![0, 1] Cert.ReferenceIdeal.Facts₀.bcast_S1x128_S100000x128_0_1 (V c main_v62)))
          (broadcastInDim Cert.ReferenceIdeal.S100000x128 ![] Cert.ReferenceIdeal.Facts₀.bcast_S_S100000x128 (constant (F := Ideal) Cert.ReferenceIdeal.S_ .f32 0x00000000#32)) :=
  ((dat3 (F := Ideal) V c).arrAt_eq_of_cover 2 (biasMaxArr (V c main_v61) (V c main_v62)) (fun t _ => flushed3_eq V c t) cover3).trans
    (biasMaxArr_eq (V c main_v61) (V c main_v62))

/-! ## The bias array, D = 40 -/

/-- The output array of a bias launch as one function of the input array `H` and the bias row `b`:
    entry `(r, q)` is `H (r, q) + b (0, q)`. -/
abbrev biasArr (H : S100000x40.Idx → Elt Ideal .f32) (b : S1x40.Idx → Elt Ideal .f32) :
    S100000x40.Idx → Elt Ideal .f32 :=
  fun i => H i + b (ix2 (0 : Fin 1) (i 1))

/-- `biasArr` at an index `i`, from the input read at an equal index and the bias row read at `(0, i 1)`. -/
theorem biasArr_at (H : S100000x40.Idx → Elt Ideal .f32) (b : S1x40.Idx → Elt Ideal .f32)
    (i0 i : S100000x40.Idx) (k : S1x40.Idx) (h0 : i0 = i) (h1 : k = ix2 (0 : Fin 1) (i 1)) :
    H i0 + b k = biasArr H b i := by
  subst h0 h1; rfl

/-- `biasArr` is the whole-array form: the row broadcast to all rows and added, entry by entry. -/
theorem biasArr_eq (H : S100000x40.Idx → Elt Ideal .f32) (b : S1x40.Idx → Elt Ideal .f32) :
    biasArr H b
      = addf (F := Ideal) (φ := .f32) H (broadcastInDim Cert.ReferenceIdeal.S100000x40 ![0, 1] Cert.ReferenceIdeal.Facts₀.bcast_S1x40_S100000x40_0_1 b) := by
  funext i
  obtain ⟨r, q, rfl⟩ : ∃ (r : Fin 100000) (q : Fin 40), i = ix2 r q := ⟨i 0, i 1, eq_ix2 i⟩
  rw [addf_apply, BroadcastRead.row_apply]

/-! ## Third launch: bias row added, D = 40 -/

/-- The body's payload at `(p, q)`: the block's entry plus the bias row's entry in column `q`. -/
theorem pay5_apply (x0 : Vec Ideal S10000x40 .f32) (x1 : Vec Ideal S1x40 .f32) (p : Fin 10000) (q : Fin 40) :
    k5_pay1 x0 x1 (ix2 p q) = x0 (ix2 p q) + x1 (ix2 (0 : Fin 1) q) := by
  unfold k5_pay1
  show (shapeCast S10000x40 x0 shapeCasts_S10000x40_S10000x40) (ix2 p q)
      + broadcastTo S10000x40 (shapeCast S1x40 x1 shapeCasts_S1x40_S1x40) broadcasts_S1x40_S10000x40 (ix2 p q) = _
  rw [shapeCast_self, shapeCast_self, BiasRead.row_down_apply]

/-- The index maps over the 10 points: the input and output blocks sit at block row `t`, block column 0;
    the bias row's block is the whole row at every point. -/
theorem idx_facts5 : ∀ t : Fin cfg5.N, win5_0.index t (0 : Fin 2) = win5_2.index t (0 : Fin 2)
    ∧ win5_0.index t (1 : Fin 2) = 0 ∧ win5_2.index t (1 : Fin 2) = 0
    ∧ win5_1.index t (0 : Fin 2) = 0 ∧ win5_1.index t (1 : Fin 2) = 0
    ∧ win5_2.index t (0 : Fin 2) ≤ 9 :=
  (by decide +kernel : ∀ t : Fin grid5.N, _)

/-- Every block row of the output is some point's. -/
theorem idx_onto5 : ∀ (q0 : Fin 10), ∃ t : Fin cfg5.N, win5_2.index t = ![q0.val, 0] :=
  (by decide +kernel : ∀ (q0 : Fin 10), ∃ t : Fin grid5.N, win5_2.index t = ![q0.val, 0])

/-- What point `t` writes back is block `t` of `biasArr` of the arrays as the launch finds them. -/
theorem flushed5_eq (V : (c : Dev nD) → (b : Ref sig .tc) → Buf (Elt Ideal) ((c : Thread nD τ).loc b)) (c : Dev nD)
    (t : Fin cfg5.N) :
    (dat5 (F := Ideal) V c).flushed 2 t
      = ((cfg5.win 2).blk t).view.read (Elt Ideal) (biasArr (V c main_v77) (V c main_v78)) := by
  show (cfg5.win 2).cut (grid5.coords t) ((dat5 V c).after 2 t) = _
  rw [after5_2]
  unfold out5_2
  rw [View.canon_unit_zero zero_offsets]
  simp only [View.ld_unit_zero (S := S10000x40) zero_offsets, View.ld_unit_zero (S := S1x40) zero_offsets]
  obtain ⟨e0, e1, e2, e3, e4, e5⟩ := idx_facts5 t
  funext j
  obtain ⟨p, q, rfl⟩ : ∃ (p : Fin 10000) (q : Fin 40), j = ix2 p q := ⟨j 0, j 1, eq_ix2 j⟩
  refine (pay5_apply (iblk5 V c 0 t) (iblk5 V c 1 t) p q).trans ?_
  have h0 : ((cfg5.win 0).blk t).view.emb (ix2 p q) = ((cfg5.win 2).blk t).view.emb (ix2 p q) := by
    funext a; apply Fin.ext
    match a with
    | ⟨0, _⟩ => show win5_0.index t (0 : Fin 2) * 10000 + 1 * p.val = win5_2.index t (0 : Fin 2) * 10000 + 1 * p.val; omega
    | ⟨1, _⟩ => show win5_0.index t (1 : Fin 2) * 40 + 1 * q.val = win5_2.index t (1 : Fin 2) * 40 + 1 * q.val; omega
  have h1 : ((cfg5.win 1).blk t).view.emb (ix2 (0 : Fin 1) q) = ix2 (0 : Fin 1) ((((cfg5.win 2).blk t).view.emb (ix2 p q)) 1) := by
    funext a; apply Fin.ext
    match a with
    | ⟨0, _⟩ => show win5_1.index t (0 : Fin 2) * 1 + 1 * 0 = 0; omega
    | ⟨1, _⟩ => show win5_1.index t (1 : Fin 2) * 40 + 1 * q.val = win5_2.index t (1 : Fin 2) * 40 + 1 * q.val; omega
  show _ = biasArr (V c main_v77) (V c main_v78) (((cfg5.win 2).blk t).view.emb (ix2 p q))
  exact biasArr_at (V c main_v77) (V c main_v78) (((cfg5.win 0).blk t).view.emb (ix2 p q))
    (((cfg5.win 2).blk t).view.emb (ix2 p q)) (((cfg5.win 1).blk t).view.emb (ix2 (0 : Fin 1) q)) h0 h1

/-- An index of the output array is in point `t`'s block iff each coordinate is in the block's range on its axis. -/
theorem mem_blk5 (t : Fin cfg5.N) (i : S100000x40.Idx) :
    i ∈ ((cfg5.win 2).blk t).view.set ↔ ∀ a : Fin 2, win5_2.index t a * S10000x40.size a ≤ (i a).val ∧ (i a).val < win5_2.index t a * S10000x40.size a + S10000x40.size a := by
  show i ∈ ((View.whole main_v79).slice (win5_2.rect t)).set ↔ _
  rw [View.set_slice_whole, Rect.mem_set_unit]
  exact Iff.rfl

/-- The blocks tile the output: row `r` is in the block of the point at block row `r / 10000`. -/
theorem cover5 (i : S100000x40.Idx) :
    ∃ t : Fin cfg5.N, (cfg5.win 2).flush t = true ∧ i ∈ ((cfg5.win 2).blk t).view.set := by
  have hi0 : (i 0).val < 100000 := (i 0).isLt
  have hi1 : (i 1).val < 40 := (i 1).isLt
  obtain ⟨t, ht⟩ := idx_onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 40 ≤ (i 1).val ∧ (i 1).val < win5_2.index t (1 : Fin 2) * 40 + 40; omega

/-- The third launch's output array after the run. -/
theorem final5 (V : (c : Dev nD) → (b : Ref sig .tc) → Buf (Elt Ideal) ((c : Thread nD τ).loc b)) (c : Dev nD) :
    (dat5 (F := Ideal) V c).arrAt 2 cfg5.N
      = addf (F := Ideal) (φ := .f32) (V c main_v77) (broadcastInDim Cert.ReferenceIdeal.S100000x40 ![0, 1] Cert.ReferenceIdeal.Facts₀.bcast_S1x40_S100000x40_0_1 (V c main_v78)) :=
  ((dat5 (F := Ideal) V c).arrAt_eq_of_cover 2 (biasArr (V c main_v77) (V c main_v78)) (fun t _ => flushed5_eq V c t) cover5).trans
    (biasArr_eq (V c main_v77) (V c main_v78))

end Cert.KernelIdeal.BiasRegions

end
-- ==== Proof.GcnSpec.lean ====
/-
  The shared shape of the two programs: one graph propagation, and a bias vector laid out as a row.

  Both programs run the same three layers. A layer multiplies the node features by a weight matrix, then PROPAGATES:
  it gathers the product's rows along the edges' source column (a negative index first wrapped by the node count),
  scales row `e` by the edge's normalisation weight, and scatter-adds the rows into the edges' destination nodes from
  a zero array; then it adds the bias row. The propagation is written here once, as a function of the product, the
  two index columns and the weights, over the reference's own dimension records, so that each program's text of it is
  this function applied to that program's operands.

  The kernel lays a bias vector `[b]` out as the row `[1, b]` by a reshape, the reference by a broadcast along axis 1:
  entry `(0, q)` of either row is entry `q` of the vector.
-/
import proofs.«102305_j94489281062_1_alg».proof.ReferenceIdeal
import proofs.«102305_j94489281062_1_alg».proof.Proof.Gen.ReferenceIdeal
import proofs.«102305_j94489281062_1_alg».proof.Proof.LibBiasRow
import proofs.«102305_j94489281062_1_alg».proof.Proof.LibBroadcastInDim
import Idealize.ShloMosaic.Lib.ValueIdx
import Idealize.ShloMosaic.Lib.Pipeline.Value

noncomputable section

namespace Cert.Gcn

open Cert.ReferenceIdeal Cert.ReferenceIdeal.Facts₀ Idealize.ShloMosaic Idealize.ShloMosaic.ValueIdx

variable {F : FTy → Type} [FloatOps F]

/-! ## The edge columns and the normalisation weights -/

/-- Row `r` (0 or 1) of the `[2, 1600000]` edge table as a vector, followed by the 100000 self-loops `0, 1, 2, …`. -/
def edgeColumn (off : Fin 2 → Nat) (hs : S2x1600000.Slices off S1x1600000) (x1 : (⟨S2x1600000, .i32⟩ : BufTy).Contents (Elt F)) :
    (⟨S1700000, .i32⟩ : BufTy).Contents (Elt F) :=
  concatenate S1700000 0 [⟨S1600000, shapeCast S1600000 (extractStridedSlice S1x1600000 off x1 hs) shapeCasts_S1x1600000_S1600000⟩,
    ⟨S100000, iotaInDim S100000 32 0⟩] concatenates_S1600000_S100000_S1700000_d0

/-- The sources of the 1700000 edges (row 0 of the edge table, then the self-loops). -/
def srcCol (x1 : (⟨S2x1600000, .i32⟩ : BufTy).Contents (Elt F)) : (⟨S1700000, .i32⟩ : BufTy).Contents (Elt F) :=
  edgeColumn ![0, 0] slices_S2x1600000_S1x1600000_0_0 x1

/-- The destinations of the edges (row 1 of the edge table, then the self-loops). -/
def dstCol (x1 : (⟨S2x1600000, .i32⟩ : BufTy).Contents (Elt F)) : (⟨S1700000, .i32⟩ : BufTy).Contents (Elt F) :=
  edgeColumn ![1, 0] slices_S2x1600000_S1x1600000_1_0 x1

/-- The in-degree of every node, self-loop included: a scatter-add of ones by destination into a zero vector. -/
def degree (x1 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstCol x1))
    (broadcastInDim S1700000 ![] bcast_S_S1700000 (constant S_ .f32 0x3F800000#32))

/-- Where the in-degree is positive. -/
def degreePositive (x1 : (⟨S2x1600000, .i32⟩ : BufTy).Contents (Elt F)) : (⟨S100000, .i1⟩ : BufTy).Contents (Elt F) :=
  cmpf (F := F) .ogt (degree x1) (broadcastInDim S100000 ![] bcast_S_S100000 (constant S_ .f32 0x00000000#32))

/-- The inverse square root of `max(deg, 1e-12)`. -/
def degreeRoot (x1 : (⟨S2x1600000, .i32⟩ : BufTy).Contents (Elt F)) : (⟨S100000, .f32⟩ : BufTy).Contents (Elt F) :=
  Host.rsqrt (maximumf (degree x1) (broadcastInDim S100000 ![] bcast_S_S100000 (constant S_ .f32 0x2B8CBCCC#32)))

/-- `deg^(-1/2)` per node, `0` where the in-degree is not positive. -/
def invSqrtDeg (x1 : (⟨S2x1600000, .i32⟩ : BufTy).Contents (Elt F)) : (⟨S100000, .f32⟩ : BufTy).Contents (Elt F) :=
  select (degreePositive x1) (degreeRoot x1) (broadcastInDim S100000 ![] bcast_S_S100000 (constant S_ .f32 0x00000000#32))

/-- The source column as the gather reads it: an index below zero is moved up by the node count. -/
def wrapped (src : (⟨S1700000, .i32⟩ : BufTy).Contents (Elt F)) : (⟨S1700000x1, .i32⟩ : BufTy).Contents (Elt F) :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- One propagation of `[100000, 128]` features `h`: row `e` of the messages is row `src e` of `h` times `nrm e`,
    and node `v` receives the sum of the rows `e` with `dst e = v`. -/
def propagate128 (h : (⟨S100000x128, .f32⟩ : BufTy).Contents (Elt F)) (src dst : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 dst)
    (mulf (Host.gather gather_S100000x128_S1700000x1_S1700000x128_1_0_n_n_0_1_1128 h (wrapped src))
      (broadcastInDim S1700000x128 ![0, 1] bcast_S1700000x1_S1700000x128_0_1
        (broadcastInDim S1700000x1 ![0] bcast_S1700000_S1700000x1_0 nrm)))

/-- One propagation of `[100000, 40]` features. -/
def propagate40 (h : (⟨S100000x40, .f32⟩ : BufTy).Contents (Elt F)) (src dst : (⟨S1700000, .i32⟩ : BufTy).Contents (Elt F))
    (nrm : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32))
    (broadcastInDim S1700000x1 ![0] bcast_S1700000_S1700000x1_0 dst)
    (mulf (Host.gather gather_S100000x40_S1700000x1_S1700000x40_1_0_n_n_0_1_140 h (wrapped src))
      (broadcastInDim S1700000x40 ![0, 1] bcast_S1700000x1_S1700000x40_0_1
        (broadcastInDim S1700000x1 ![0] bcast_S1700000_S1700000x1_0 nrm)))

/-- The weight of edge `e`: `deg^(-1/2)` at its source times `deg^(-1/2)` at its destination. -/
def edgeNorm (x1 : (⟨S2x1600000, .i32⟩ : BufTy).Contents (Elt F)) : (⟨S1700000, .f32⟩ : BufTy).Contents (Elt F) :=
  mulf (Host.gather gather_S100000_S1700000x1_S1700000_n_0_n_n_0_1_1 (invSqrtDeg x1) (wrapped (srcCol x1)))
    (Host.gather gather_S100000_S1700000x1_S1700000_n_0_n_n_0_1_1 (invSqrtDeg x1) (wrapped (dstCol x1)))

/-! ## The three layers -/

/-- The zero array a ReLU takes the maximum with. -/
def zeros128 : (⟨S100000x128, .f32⟩ : BufTy).Contents (Elt F) :=
  broadcastInDim S100000x128 ![] bcast_S_S100000x128 (constant S_ .f32 0x00000000#32)

/-- A bias vector `[128]` as a row, repeated down the 100000 nodes. -/
def biasRows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- A bias vector `[40]` as a row, repeated down the 100000 nodes. -/
def biasRows40 (b : (⟨S40, .f32⟩ : BufTy).Contents (Elt F)) : (⟨S100000x40, .f32⟩ : BufTy).Contents (Elt F) :=
  broadcastInDim S100000x40 ![0, 1] bcast_S1x40_S100000x40_0_1 (broadcastInDim S1x40 ![1] bcast_S40_S1x40_1 b)

/-- Layer 1: `relu(propagate(x · W1) + b1)`. -/
def layer1 (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F)) :
    (⟨S100000x128, .f32⟩ : BufTy).Contents (Elt F) :=
  maximumf (addf (propagate128 (Host.dotGeneral dot_S100000x256_S256x128_S100000x128_1_0_0_1_n_n none x0 x2)
    (srcCol x1) (dstCol x1) (edgeNorm x1)) (biasRows128 x3)) zeros128

/-- Layer 2: `relu(propagate(h · W2) + b2)`. -/
def layer2 (h : (⟨S100000x128, .f32⟩ : BufTy).Contents (Elt F)) (x1 : (⟨S2x1600000, .i32⟩ : BufTy).Contents (Elt F))
    (x4 : (⟨S128x128, .f32⟩ : BufTy).Contents (Elt F)) (x5 : (⟨S128, .f32⟩ : BufTy).Contents (Elt F)) :
    (⟨S100000x128, .f32⟩ : BufTy).Contents (Elt F) :=
  maximumf (addf (propagate128 (Host.dotGeneral dot_S100000x128_S128x128_S100000x128_1_0_0_1_n_n none h x4)
    (srcCol x1) (dstCol x1) (edgeNorm x1)) (biasRows128 x5)) zeros128

/-- Layer 3: `propagate(h · W3) + b3`. -/
def layer3 (h : (⟨S100000x128, .f32⟩ : BufTy).Contents (Elt F)) (x1 : (⟨S2x1600000, .i32⟩ : BufTy).Contents (Elt F))
    (x6 : (⟨S128x40, .f32⟩ : BufTy).Contents (Elt F)) (x7 : (⟨S40, .f32⟩ : BufTy).Contents (Elt F)) :
    (⟨S100000x40, .f32⟩ : BufTy).Contents (Elt F) :=
  addf (propagate40 (Host.dotGeneral dot_S100000x128_S128x40_S100000x40_1_0_0_1_n_n none h x6)
    (srcCol x1) (dstCol x1) (edgeNorm x1)) (biasRows40 x7)

/-- The whole network: what both programs compute from the eight arguments. -/
def gcn (x0 : (⟨S100000x256, .f32⟩ : BufTy).Contents (Elt F)) (x1 : (⟨S2x1600000, .i32⟩ : BufTy).Contents (Elt F))
    (x2 : (⟨S256x128, .f32⟩ : BufTy).Contents (Elt F)) (x3 : (⟨S128, .f32⟩ : BufTy).Contents (Elt F))
    (x4 : (⟨S128x128, .f32⟩ : BufTy).Contents (Elt F)) (x5 : (⟨S128, .f32⟩ : BufTy).Contents (Elt F))
    (x6 : (⟨S128x40, .f32⟩ : BufTy).Contents (Elt F)) (x7 : (⟨S40, .f32⟩ : BufTy).Contents (Elt F)) :
    (⟨S100000x40, .f32⟩ : BufTy).Contents (Elt F) :=
  layer3 (layer2 (layer1 x0 x1 x2 x3) x1 x4 x5) x1 x6 x7

/-! ## A bias vector as a row -/

/-- The reshape of a vector `[b]` to the row `[1, b]` and its broadcast along axis 1 are one row. -/
theorem row_of_vector {α : Type} {b : ℕ} (x : (⟨1, ![b]⟩ : Shape).Idx → α)
    (h₁ : (⟨1, ![b]⟩ : Shape).ShapeCasts ⟨2, ![1, b]⟩) (h₂ : (⟨1, ![b]⟩ : Shape).BroadcastsInDim ⟨2, ![1, b]⟩ ![1]) :
    shapeCast ⟨2, ![1, b]⟩ x h₁ = broadcastInDim ⟨2, ![1, b]⟩ ![1] h₂ x := by
  funext j
  obtain ⟨u, q, rfl⟩ : ∃ (u : Fin 1) (q : Fin b), j = ix2 u q := ⟨j 0, j 1, eq_ix2 j⟩
  rw [BiasRead.vector_as_row_apply, BroadcastRead.vector_row_apply]

end Cert.Gcn

end
-- ==== Proof.KernelValue.lean ====
/-
  The idealized kernel's result, read through the fold of valuations: it is the network of the eight launch arrays.

  The run leaves the result buffer at the last of thirteen valuations `W0 … W12` (one per segment boundary). Walking
  back: the last launch's output is its bias kernel applied to what the stretch before it left in that launch's two
  inputs; that stretch is one propagation of the fifth launch's output and the bias vector made a row; the fifth launch's
  output is a product of the fourth launch's output with a weight matrix that nothing has written since the launch of
  the program; and so on down to the first stretch, which builds the two edge columns, the degrees and the edge weights
  from the edge table. A buffer that a stretch does not write, and that is not one of a launch's arrays, is the same in
  the valuation after as in the one before; that is how the edge columns, the weights and the arguments reach the
  places where they are read.
-/
import proofs.«102305_j94489281062_1_alg».proof.Proof.Gen.KernelIdeal.Frame
import proofs.«102305_j94489281062_1_alg».proof.Proof.MatmulRegions
import proofs.«102305_j94489281062_1_alg».proof.Proof.BiasRegions
import proofs.«102305_j94489281062_1_alg».proof.Proof.GcnSpec

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo Cert.Gcn

/-- Discharges "no operation of the stretch writes this buffer" for a literal stretch and a literal buffer. -/
macro "unwritten" : tactic => `(tactic| (
  refine List.forall_iff_forall_mem.mp ?_
  simp only [hostOps0, hostOps0_1, hostOps0_2, hostOps1, hostOps3, hostOps5, List.Forall, StableHlo.nullary_writes,
    StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide)))

/-! ## The host stretches, read at the buffers the launches and later stretches use

Each stretch is read from an arbitrary valuation `W` at its entry: the buffers it writes as functions of the
buffers it reads. -/

section Stretches
variable (W : Valuation τ sig (Elt Ideal))

/-! ### Before the first launch: the edge columns, the degrees, the weights -/

set_option maxHeartbeats 8000000 in
theorem first_src :
    after hostOps0 W (Proc.devRef .tc main_v3) = srcCol (F := Ideal) (W (Proc.devRef .tc main_arg1)) := by
  after_results_simp <;> rfl

set_option maxHeartbeats 8000000 in
theorem first_dst :
    after hostOps0 W (Proc.devRef .tc main_v6) = dstCol (F := Ideal) (W (Proc.devRef .tc main_arg1)) := by
  after_results_simp <;> rfl

set_option maxHeartbeats 8000000 in
theorem first_positive :
    after hostOps0 W (Proc.devRef .tc main_v12) = degreePositive (F := Ideal) (W (Proc.devRef .tc main_arg1)) := by
  after_results_simp <;> rfl

set_option maxHeartbeats 8000000 in
theorem first_root :
    after hostOps0 W (Proc.devRef .tc main_v15) = degreeRoot (F := Ideal) (W (Proc.devRef .tc main_arg1)) := by
  after_results_simp <;> rfl

set_option maxHeartbeats 8000000 in
theorem first_zero :
    after hostOps0 W (Proc.devRef .tc main_cst_3) = constant (F := Ideal) Cert.ReferenceIdeal.S_ .f32 0x00000000#32 := by
  after_results_simp <;> rfl

set_option maxHeartbeats 8000000 in
theorem second_select :
    after hostOps0_1 W (Proc.devRef .tc main_v16)
      = select (W (Proc.devRef .tc main_v12)) (W (Proc.devRef .tc main_v15))
          (broadcastInDim Cert.ReferenceIdeal.S100000 ![] Cert.ReferenceIdeal.Facts₀.bcast_S_S100000 (W (Proc.devRef .tc main_cst_3))) := by
  after_results_simp <;> rfl

set_option maxHeartbeats 8000000 in
theorem third_norm :
    after hostOps0_2 W (Proc.devRef .tc main_v31)
      = mulf (F := Ideal) (φ := .f32)
          (Host.gather Cert.ReferenceIdeal.gather_S100000_S1700000x1_S1700000_n_0_n_n_0_1_1 (W (Proc.devRef .tc main_v16))
            (wrapped (F := Ideal) (W (Proc.devRef .tc main_v3))))
          (Host.gather Cert.ReferenceIdeal.gather_S100000_S1700000x1_S1700000_n_0_n_n_0_1_1 (W (Proc.devRef .tc main_v16))
            (wrapped (F := Ideal) (W (Proc.devRef .tc main_v6)))) := by
  after_results_simp <;> rfl

/-! ### Between the launches: one propagation and the next bias row -/

set_option maxHeartbeats 8000000 in
theorem stretch1_features :
    after hostOps1 W (Proc.devRef .tc main_v45)
      = propagate128 (F := Ideal) (W (Proc.devRef .tc main_v32)) (W (Proc.devRef .tc main_v3))
          (W (Proc.devRef .tc main_v6)) (W (Proc.devRef .tc main_v31)) := by
  after_results_simp <;> rfl

set_option maxHeartbeats 8000000 in
theorem stretch1_bias :
    after hostOps1 W (Proc.devRef .tc main_v46)
      = shapeCast S1x128 (W (Proc.devRef .tc main_arg3)) shapeCasts_S128_S1x128 := by
  after_results_simp <;> rfl

set_option maxHeartbeats 8000000 in
theorem stretch3_features :
    after hostOps3 W (Proc.devRef .tc main_v61)
      = propagate128 (F := Ideal) (W (Proc.devRef .tc main_v48)) (W (Proc.devRef .tc main_v3))
          (W (Proc.devRef .tc main_v6)) (W (Proc.devRef .tc main_v31)) := by
  after_results_simp <;> rfl

set_option maxHeartbeats 8000000 in
theorem stretch3_bias :
    after hostOps3 W (Proc.devRef .tc main_v62)
      = shapeCast S1x128 (W (Proc.devRef .tc main_arg5)) shapeCasts_S128_S1x128 := by
  after_results_simp <;> rfl

set_option maxHeartbeats 8000000 in
theorem stretch5_features :
    after hostOps5 W (Proc.devRef .tc main_v77)
      = propagate40 (F := Ideal) (W (Proc.devRef .tc main_v64)) (W (Proc.devRef .tc main_v3))
          (W (Proc.devRef .tc main_v6)) (W (Proc.devRef .tc main_v31)) := by
  after_results_simp <;> rfl

set_option maxHeartbeats 8000000 in
theorem stretch5_bias :
    after hostOps5 W (Proc.devRef .tc main_v78)
      = shapeCast S1x40 (W (Proc.devRef .tc main_arg7)) shapeCasts_S40_S1x40 := by
  after_results_simp <;> rfl

end Stretches

/-! ## Buffers that a stretch or a launch leaves alone -/

section Chain
variable (m : (ℓ : Loc nD τ sig) → Buf (Elt Ideal) ℓ) (ρ : Dev nD → PrngReg) (c : Dev nD)

/-- A buffer none of the first three stretches writes holds its launch contents when the first launch begins. -/
theorem launch_at_W3 (b : Ref sig .tc)
    (h0 : ∀ op ∈ (hostOps0 : List (HloOp τ sig (Elt Ideal))), (Proc.devRef .tc b : DevRef τ sig) ∉ op.writes)
    (h1 : ∀ op ∈ (hostOps0_1 : List (HloOp τ sig (Elt Ideal))), (Proc.devRef .tc b : DevRef τ sig) ∉ op.writes)
    (h2 : ∀ op ∈ (hostOps0_2 : List (HloOp τ sig (Elt Ideal))), (Proc.devRef .tc b : DevRef τ sig) ∉ op.writes) :
    W3 m ρ c (Proc.devRef .tc b) = m ((c : Thread nD τ).loc b) :=
  (after_of_forall_not_mem _ _ h2).trans ((after_of_forall_not_mem _ _ h1).trans (after_of_forall_not_mem _ _ h0))

/-- From the second launch's entry back to the first launch's entry. -/
theorem W6_at_W3 (b : Ref sig .tc) (h1 : ∀ w, Pipeline.arrRef spec1 w ≠ b)
    (hs : ∀ op ∈ (hostOps1 : List (HloOp τ sig (Elt Ideal))), (Proc.devRef .tc b : DevRef τ sig) ∉ op.writes)
    (h0 : ∀ w, Pipeline.arrRef spec0 w ≠ b) :
    W6 m ρ c (Proc.devRef .tc b) = W3 m ρ c (Proc.devRef .tc b) :=
  (W6_of_ne m ρ c b h1).trans ((after_of_forall_not_mem _ _ hs).trans (W4_of_ne m ρ c b h0))

/-- From the third launch's exit back to the first launch's entry. -/
theorem W7_at_W3 (b : Ref sig .tc) (h2 : ∀ w, Pipeline.arrRef spec2 w ≠ b) (h1 : ∀ w, Pipeline.arrRef spec1 w ≠ b)
    (hs : ∀ op ∈ (hostOps1 : List (HloOp τ sig (Elt Ideal))), (Proc.devRef .tc b : DevRef τ sig) ∉ op.writes)
    (h0 : ∀ w, Pipeline.arrRef spec0 w ≠ b) :
    W7 m ρ c (Proc.devRef .tc b) = W3 m ρ c (Proc.devRef .tc b) :=
  (W7_of_ne m ρ c b h2).trans (W6_at_W3 m ρ c b h1 hs h0)

/-- From the fourth launch's exit back to the third launch's exit. -/
theorem W9_at_W7 (b : Ref sig .tc) (h3 : ∀ w, Pipeline.arrRef spec3 w ≠ b)
    (hs : ∀ op ∈ (hostOps3 : List (HloOp τ sig (Elt Ideal))), (Proc.devRef .tc b : DevRef τ sig) ∉ op.writes) :
    W9 m ρ c (Proc.devRef .tc b) = W7 m ρ c (Proc.devRef .tc b) :=
  (W9_of_ne m ρ c b h3).trans (after_of_forall_not_mem _ _ hs)

/-- From the fifth launch's exit back to the third launch's exit. -/
theorem W10_at_W7 (b : Ref sig .tc) (h4 : ∀ w, Pipeline.arrRef spec4 w ≠ b) (h3 : ∀ w, Pipeline.arrRef spec3 w ≠ b)
    (hs : ∀ op ∈ (hostOps3 : List (HloOp τ sig (Elt Ideal))), (Proc.devRef .tc b : DevRef τ sig) ∉ op.writes) :
    W10 m ρ c (Proc.devRef .tc b) = W7 m ρ c (Proc.devRef .tc b) :=
  (W10_of_ne m ρ c b h4).trans (W9_at_W7 m ρ c b h3 hs)

/-! ## The arguments and the edge data where each is read -/

theorem arg0_W3 : W3 m ρ c (Proc.devRef .tc main_arg0) = m ((c : Thread nD τ).loc main_arg0) :=
  launch_at_W3 m ρ c main_arg0 (by unwritten) (by unwritten) (by unwritten)
theorem arg2_W3 : W3 m ρ c (Proc.devRef .tc main_arg2) = m ((c : Thread nD τ).loc main_arg2) :=
  launch_at_W3 m ρ c main_arg2 (by unwritten) (by unwritten) (by unwritten)
theorem arg3_W4 : W4 m ρ c (Proc.devRef .tc main_arg3) = m ((c : Thread nD τ).loc main_arg3) :=
  (W4_of_ne m ρ c main_arg3 (by decide)).trans (launch_at_W3 m ρ c main_arg3 (by unwritten) (by unwritten) (by unwritten))
theorem arg4_W6 : W6 m ρ c (Proc.devRef .tc main_arg4) = m ((c : Thread nD τ).loc main_arg4) :=
  (W6_at_W3 m ρ c main_arg4 (by decide) (by unwritten) (by decide)).trans
    (launch_at_W3 m ρ c main_arg4 (by unwritten) (by unwritten) (by unwritten))
theorem arg5_W7 : W7 m ρ c (Proc.devRef .tc main_arg5) = m ((c : Thread nD τ).loc main_arg5) :=
  (W7_at_W3 m ρ c main_arg5 (by decide) (by decide) (by unwritten) (by decide)).trans
    (launch_at_W3 m ρ c main_arg5 (by unwritten) (by unwritten) (by unwritten))
theorem arg6_W9 : W9 m ρ c (Proc.devRef .tc main_arg6) = m ((c : Thread nD τ).loc main_arg6) :=
  (W9_at_W7 m ρ c main_arg6 (by decide) (by unwritten)).trans
    ((W7_at_W3 m ρ c main_arg6 (by decide) (by decide) (by unwritten) (by decide)).trans
      (launch_at_W3 m ρ c main_arg6 (by unwritten) (by unwritten) (by unwritten)))
theorem arg7_W10 : W10 m ρ c (Proc.devRef .tc main_arg7) = m ((c : Thread nD τ).loc main_arg7) :=
  (W10_at_W7 m ρ c main_arg7 (by decide) (by decide) (by unwritten)).trans
    ((W7_at_W3 m ρ c main_arg7 (by decide) (by decide) (by unwritten) (by decide)).trans
      (launch_at_W3 m ρ c main_arg7 (by unwritten) (by unwritten) (by unwritten)))

theorem src_W3 : W3 m ρ c (Proc.devRef .tc main_v3) = srcCol (F := Ideal) (m ((c : Thread nD τ).loc main_arg1)) :=
  (after_of_forall_not_mem hostOps0_2 _ (by unwritten)).trans
    ((after_of_forall_not_mem hostOps0_1 _ (by unwritten)).trans (first_src (W0 m ρ c)))
theorem dst_W3 : W3 m ρ c (Proc.devRef .tc main_v6) = dstCol (F := Ideal) (m ((c : Thread nD τ).loc main_arg1)) :=
  (after_of_forall_not_mem hostOps0_2 _ (by unwritten)).trans
    ((after_of_forall_not_mem hostOps0_1 _ (by unwritten)).trans (first_dst (W0 m ρ c)))

/-- `deg^(-1/2)` per node, as the select after the degrees leaves it. -/
theorem dinv_W2 : W2 m ρ c (Proc.devRef .tc main_v16) = invSqrtDeg (F := Ideal) (m ((c : Thread nD τ).loc main_arg1)) :=
  (second_select (W1 m ρ c)).trans (by
    rw [show W1 m ρ c (Proc.devRef .tc main_v12) = _ from first_positive (W0 m ρ c),
      show W1 m ρ c (Proc.devRef .tc main_v15) = _ from first_root (W0 m ρ c),
      show W1 m ρ c (Proc.devRef .tc main_cst_3) = _ from first_zero (W0 m ρ c)]
    rfl)

theorem norm_W3 : W3 m ρ c (Proc.devRef .tc main_v31) = edgeNorm (F := Ideal) (m ((c : Thread nD τ).loc main_arg1)) :=
  (third_norm (W2 m ρ c)).trans (by
    rw [dinv_W2 m ρ c,
      show W2 m ρ c (Proc.devRef .tc main_v3) = _ from
        (after_of_forall_not_mem hostOps0_1 _ (by unwritten)).trans (first_src (W0 m ρ c)),
      show W2 m ρ c (Proc.devRef .tc main_v6) = _ from
        (after_of_forall_not_mem hostOps0_1 _ (by unwritten)).trans (first_dst (W0 m ρ c))]
    rfl)

end Chain

/-! ## The three layers, read off the fold of valuations -/

section Layers
variable (m : (ℓ : Loc nD τ sig) → Buf (Elt Ideal) ℓ) (ρ : Dev nD → PrngReg) (c : Dev nD)

open Cert.ReferenceIdeal (dot_S100000x256_S256x128_S100000x128_1_0_0_1_n_n dot_S100000x128_S128x128_S100000x128_1_0_0_1_n_n
  dot_S100000x128_S128x40_S100000x40_1_0_0_1_n_n)

/-- The edge columns and weights where the first propagation reads them. -/
theorem src_W4 : W4 m ρ c (Proc.devRef .tc main_v3) = srcCol (F := Ideal) (m ((c : Thread nD τ).loc main_arg1)) :=
  (W4_of_ne m ρ c main_v3 (by decide)).trans (src_W3 m ρ c)
theorem dst_W4 : W4 m ρ c (Proc.devRef .tc main_v6) = dstCol (F := Ideal) (m ((c : Thread nD τ).loc main_arg1)) :=
  (W4_of_ne m ρ c main_v6 (by decide)).trans (dst_W3 m ρ c)
theorem norm_W4 : W4 m ρ c (Proc.devRef .tc main_v31) = edgeNorm (F := Ideal) (m ((c : Thread nD τ).loc main_arg1)) :=
  (W4_of_ne m ρ c main_v31 (by decide)).trans (norm_W3 m ρ c)

/-- … where the second propagation reads them. -/
theorem src_W7 : W7 m ρ c (Proc.devRef .tc main_v3) = srcCol (F := Ideal) (m ((c : Thread nD τ).loc main_arg1)) :=
  (W7_at_W3 m ρ c main_v3 (by decide) (by decide) (by unwritten) (by decide)).trans (src_W3 m ρ c)
theorem dst_W7 : W7 m ρ c (Proc.devRef .tc main_v6) = dstCol (F := Ideal) (m ((c : Thread nD τ).loc main_arg1)) :=
  (W7_at_W3 m ρ c main_v6 (by decide) (by decide) (by unwritten) (by decide)).trans (dst_W3 m ρ c)
theorem norm_W7 : W7 m ρ c (Proc.devRef .tc main_v31) = edgeNorm (F := Ideal) (m ((c : Thread nD τ).loc main_arg1)) :=
  (W7_at_W3 m ρ c main_v31 (by decide) (by decide) (by unwritten) (by decide)).trans (norm_W3 m ρ c)

/-- … where the third propagation reads them. -/
theorem src_W10 : W10 m ρ c (Proc.devRef .tc main_v3) = srcCol (F := Ideal) (m ((c : Thread nD τ).loc main_arg1)) :=
  (W10_at_W7 m ρ c main_v3 (by decide) (by decide) (by unwritten)).trans (src_W7 m ρ c)
theorem dst_W10 : W10 m ρ c (Proc.devRef .tc main_v6) = dstCol (F := Ideal) (m ((c : Thread nD τ).loc main_arg1)) :=
  (W10_at_W7 m ρ c main_v6 (by decide) (by decide) (by unwritten)).trans (dst_W7 m ρ c)
theorem norm_W10 : W10 m ρ c (Proc.devRef .tc main_v31) = edgeNorm (F := Ideal) (m ((c : Thread nD τ).loc main_arg1)) :=
  (W10_at_W7 m ρ c main_v31 (by decide) (by decide) (by unwritten)).trans (norm_W7 m ρ c)

/-- The first launch leaves the product of the features and the first weights. -/
theorem product1 : W4 m ρ c (Proc.devRef .tc main_v32)
    = Host.dotGeneral (F := Ideal) (φ₁ := .f32) (φ₂ := .f32) dot_S100000x256_S256x128_S100000x128_1_0_0_1_n_n none (m ((c : Thread nD τ).loc main_arg0)) (m ((c : Thread nD τ).loc main_arg2)) :=
  (W4_arr m ρ c 2).trans ((MatmulRegions.final0 (V3 m ρ) c).trans
    (congrArg₂ (fun l r => Host.dotGeneral (F := Ideal) (φ₁ := .f32) (φ₂ := .f32) dot_S100000x256_S256x128_S100000x128_1_0_0_1_n_n none l r)
      (arg0_W3 m ρ c) (arg2_W3 m ρ c)))

theorem features1 : W5 m ρ c (Proc.devRef .tc main_v45)
    = propagate128 (F := Ideal) (Host.dotGeneral (F := Ideal) (φ₁ := .f32) (φ₂ := .f32) dot_S100000x256_S256x128_S100000x128_1_0_0_1_n_n none (m ((c : Thread nD τ).loc main_arg0)) (m ((c : Thread nD τ).loc main_arg2)))
        (srcCol (m ((c : Thread nD τ).loc main_arg1))) (dstCol (m ((c : Thread nD τ).loc main_arg1))) (edgeNorm (m ((c : Thread nD τ).loc main_arg1))) :=
  (stretch1_features (W4 m ρ c)).trans (by rw [product1 m ρ c, src_W4 m ρ c, dst_W4 m ρ c, norm_W4 m ρ c])

theorem biasrow1 : W5 m ρ c (Proc.devRef .tc main_v46) = shapeCast S1x128 (m ((c : Thread nD τ).loc main_arg3)) shapeCasts_S128_S1x128 :=
  (stretch1_bias (W4 m ρ c)).trans (by rw [arg3_W4 m ρ c])

/-- The second launch leaves the first layer's output. -/
theorem hidden1 : W6 m ρ c (Proc.devRef .tc main_v47) = layer1 (F := Ideal) (m ((c : Thread nD τ).loc main_arg0)) (m ((c : Thread nD τ).loc main_arg1)) (m ((c : Thread nD τ).loc main_arg2)) (m ((c : Thread nD τ).loc main_arg3)) :=
  (W6_arr m ρ c 2).trans ((BiasRegions.final1 (V5 m ρ) c).trans (by
    rw [show V5 m ρ c main_v45 = _ from features1 m ρ c, show V5 m ρ c main_v46 = _ from biasrow1 m ρ c,
      row_of_vector _ _ Cert.ReferenceIdeal.Facts₀.bcast_S128_S1x128_1]
    rfl))

/-- The third launch leaves the product of the first layer's output and the second weights. -/
theorem product2 : W7 m ρ c (Proc.devRef .tc main_v48)
    = Host.dotGeneral (F := Ideal) (φ₁ := .f32) (φ₂ := .f32) dot_S100000x128_S128x128_S100000x128_1_0_0_1_n_n none (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg4)) :=
  (W7_arr m ρ c 2).trans ((MatmulRegions.final2 (V6 m ρ) c).trans
    (congrArg₂ (fun l r => Host.dotGeneral (F := Ideal) (φ₁ := .f32) (φ₂ := .f32) dot_S100000x128_S128x128_S100000x128_1_0_0_1_n_n none l r)
      (hidden1 m ρ c) (arg4_W6 m ρ c)))

theorem features2 : W8 m ρ c (Proc.devRef .tc main_v61)
    = propagate128 (F := Ideal)
        (Host.dotGeneral (F := Ideal) (φ₁ := .f32) (φ₂ := .f32) dot_S100000x128_S128x128_S100000x128_1_0_0_1_n_n none (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg4)))
        (srcCol (m ((c : Thread nD τ).loc main_arg1))) (dstCol (m ((c : Thread nD τ).loc main_arg1))) (edgeNorm (m ((c : Thread nD τ).loc main_arg1))) :=
  (stretch3_features (W7 m ρ c)).trans (by rw [product2 m ρ c, src_W7 m ρ c, dst_W7 m ρ c, norm_W7 m ρ c])

theorem biasrow2 : W8 m ρ c (Proc.devRef .tc main_v62) = shapeCast S1x128 (m ((c : Thread nD τ).loc main_arg5)) shapeCasts_S128_S1x128 :=
  (stretch3_bias (W7 m ρ c)).trans (by rw [arg5_W7 m ρ c])

/-- The fourth launch leaves the second layer's output. -/
theorem hidden2 : W9 m ρ c (Proc.devRef .tc main_v63) = layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5)) :=
  (W9_arr m ρ c 2).trans ((BiasRegions.final3 (V8 m ρ) c).trans (by
    rw [show V8 m ρ c main_v61 = _ from features2 m ρ c, show V8 m ρ c main_v62 = _ from biasrow2 m ρ c,
      row_of_vector _ _ Cert.ReferenceIdeal.Facts₀.bcast_S128_S1x128_1]
    rfl))

/-- The fifth launch leaves the product of the second layer's output and the third weights. -/
theorem product3 : W10 m ρ c (Proc.devRef .tc main_v64)
    = Host.dotGeneral (F := Ideal) (φ₁ := .f32) (φ₂ := .f32) dot_S100000x128_S128x40_S100000x40_1_0_0_1_n_n none
        (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)) :=
  (W10_arr m ρ c 2).trans ((MatmulRegions.final4 (V9 m ρ) c).trans
    (congrArg₂ (fun l r => Host.dotGeneral (F := Ideal) (φ₁ := .f32) (φ₂ := .f32) dot_S100000x128_S128x40_S100000x40_1_0_0_1_n_n none l r)
      (hidden2 m ρ c) (arg6_W9 m ρ c)))

theorem features3 : W11 m ρ c (Proc.devRef .tc main_v77)
    = propagate40 (F := Ideal)
        (Host.dotGeneral (F := Ideal) (φ₁ := .f32) (φ₂ := .f32) dot_S100000x128_S128x40_S100000x40_1_0_0_1_n_n none
          (layer2 (F := Ideal) (layer1 (F := Ideal) (m ((c : Thread nD τ).loc main_arg0)) (m ((c : Thread nD τ).loc main_arg1)) (m ((c : Thread nD τ).loc main_arg2)) (m ((c : Thread nD τ).loc main_arg3))) (m ((c : Thread nD τ).loc main_arg1)) (m ((c : Thread nD τ).loc main_arg4)) (m ((c : Thread nD τ).loc main_arg5))) (m ((c : Thread nD τ).loc main_arg6)))
        (srcCol (m ((c : Thread nD τ).loc main_arg1))) (dstCol (m ((c : Thread nD τ).loc main_arg1))) (edgeNorm (m ((c : Thread nD τ).loc main_arg1))) :=
  (stretch5_features (W10 m ρ c)).trans (by rw [product3 m ρ c, src_W10 m ρ c, dst_W10 m ρ c, norm_W10 m ρ c])

theorem biasrow3 : W11 m ρ c (Proc.devRef .tc main_v78) = shapeCast S1x40 (m ((c : Thread nD τ).loc main_arg7)) shapeCasts_S40_S1x40 :=
  (stretch5_bias (W10 m ρ c)).trans (by rw [arg7_W10 m ρ c])

/-- THE KERNEL'S RESULT: the last launch's output array is the network of the eight launch arrays. -/
theorem kernel_value : W12 m ρ c (Proc.devRef .tc main_v79) = gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 2).trans ((BiasRegions.final5 (V11 m ρ) c).trans (by
    rw [show V11 m ρ c main_v77 = _ from features3 m ρ c, show V11 m ρ c main_v78 = _ from biasrow3 m ρ c,
      row_of_vector _ _ Cert.ReferenceIdeal.Facts₀.bcast_S40_S1x40_1]
    rfl))

end Layers

end Cert.KernelIdeal.Chain

end
-- ==== Proof.ReferenceValue.lean ====
/-
  The reference program's result is the three-layer network of the eight launch arrays.

  The reference's result term spells the three layers out in full: the two edge columns (a row of the edge table followed by
  the self-loops) many times over, the degree normalisation deg^(-1/2) (zero where the in-degree is not positive) and the
  edge weights built from it once per layer, and per layer the product with the weight matrix, the gather along the wrapped
  source column, the scaling by the edge weights, the scatter-add into the destination nodes from a zero array, the bias
  row, and for the first two layers the maximum with zero. The network function names each of those pieces once and
  applies it to the same operands in the same order; the select's third argument appears in the term under an identity
  function, which changes nothing. Unfolding the names on both sides leaves the same tree of operations, so the two are
  equal by definition.
-/
import proofs.«102305_j94489281062_1_alg».proof.Proof.ReferenceRun
import proofs.«102305_j94489281062_1_alg».proof.Proof.GcnSpec

noncomputable section

namespace Cert.ReferenceIdeal.RefValue

open Cert.ReferenceIdeal Idealize.ShloMosaic Idealize.ShloMosaic.TcCoe Idealize.SL.Sem

/-- The reference's result, as the run states it, is the network function of the eight arguments' launch contents. -/
theorem ref_value (m : (ℓ : Loc nD τ sig) → Buf (Elt Ideal) ℓ) (c : Dev nD) :
    Cert.ReferenceIdeal.ValueP.res_main_v134 (F := Ideal) m c
      = Cert.Gcn.gcn (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v134
  rfl

end Cert.ReferenceIdeal.RefValue

end
-- ==== Proof.lean ====
/-
  A three-layer graph convolution, its Pallas version against its jnp reference, at the exact extended reals.

  Both programs add the 100000 self-loops to the 1600000 edges, weigh edge `e` by `deg(src e)^(-1/2) · deg(dst e)^(-1/2)`
  (the in-degrees by a scatter-add of ones; `0` in place of the root where a degree is not positive) and run three layers
  `h ↦ propagate(h · W) + b` (the first two followed by a maximum with `0`): `propagate` gathers the product's rows along the
  edges' sources, scales them by the edge weights and scatter-adds them into the destinations. The reference does each
  step as one operation on whole arrays. The kernel program does the gathers and scatters the same way, but computes each
  product `h · W` and each `· + b` (and the maximum) by a launch tiled over ten blocks of 10000 rows.

  What is proved by hand:
  * each launch's output array is the whole-array operation of its input arrays — a row block of a product is the
    product of the row block, and adding a bias row and taking a maximum are entrywise (`MatmulRegions`, `BiasRegions`);
  * the kernel's run, read through its twelve segments, ends with the result buffer at the network `Cert.Gcn.gcn` of the
    eight arguments (`KernelRun`, `KernelValue`): no law of arithmetic is needed, the two programs apply the same
    operations in the same order, so finiteness of the inputs is never used;
  * the reference's result term is the same function (`ReferenceValue`).
  The three frames are the generated ones (the reference's is its run with the result dropped), and the idealization
  rewrote nothing, so `preserves` has nothing to state.
-/
import proofs.«102305_j94489281062_1_alg».proof.Defs
import proofs.«102305_j94489281062_1_alg».proof.Proof.Gen.Kernel
import proofs.«102305_j94489281062_1_alg».proof.Proof.Gen.Kernel.Skeleton
import proofs.«102305_j94489281062_1_alg».proof.Proof.Gen.Kernel.Launch
import proofs.«102305_j94489281062_1_alg».proof.Proof.Gen.Kernel.Points
import proofs.«102305_j94489281062_1_alg».proof.Proof.Gen.Kernel.Frame
import proofs.«102305_j94489281062_1_alg».proof.Proof.Gen.KernelIdeal
import proofs.«102305_j94489281062_1_alg».proof.Proof.Gen.KernelIdeal.Skeleton
import proofs.«102305_j94489281062_1_alg».proof.Proof.Gen.KernelIdeal.Launch
import proofs.«102305_j94489281062_1_alg».proof.Proof.Gen.KernelIdeal.Points
import proofs.«102305_j94489281062_1_alg».proof.Proof.Gen.KernelIdeal.Frame
import proofs.«102305_j94489281062_1_alg».proof.Proof.Gen.ReferenceIdeal
import proofs.«102305_j94489281062_1_alg».proof.Proof.Gen.Pre_finite_inputs
import proofs.«102305_j94489281062_1_alg».proof.Proof.KernelRun
import proofs.«102305_j94489281062_1_alg».proof.Proof.KernelValue
import proofs.«102305_j94489281062_1_alg».proof.Proof.ReferenceRun
import proofs.«102305_j94489281062_1_alg».proof.Proof.ReferenceValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the eight arguments both programs end with the network of those arguments in their
    result buffers, and with the arguments unchanged. -/
theorem algebraic : Cert.algebraic_KernelIdeal_ReferenceIdeal := by
  intro m ρ m' ρ' _ hagree
  refine ⟨fun c => Cert.Gcn.gcn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.kernel_value m ρ c), (h c).2⟩)
      (Cert.KernelIdeal.RunValue.run_main m ρ)
  · refine (θ_run Cert.ReferenceIdeal.defs _ _).mono (fun r h c => ⟨?_, (h c).2⟩)
      (Cert.ReferenceIdeal.ValueP.run (F := Ideal) m' ρ')
    obtain ⟨e0, e1, e2, e3, e4, e5, e6, e7⟩ := hagree c
    rw [(h c).1, Cert.ReferenceIdeal.RefValue.ref_value, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
